-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S128x256 .f32) (main_arg13 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S32x64 .f32) (main_arg9 : FVec F S64 .f32) (main_arg10 : FVec F S64x128 .f32) (main_arg11 : FVec F S128 .f32) (main_arg12 : FVec F S128x256 .f32) (main_arg13 : FVec F S256 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S850000x256 : Shape := ⟨2, ![850000, 256]⟩
abbrev S1x256 : Shape := ⟨2, ![1, 256]⟩

abbrev nBuf : Space → Nat
  | .hbm => 171
  | .vmem => 60
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S64x32, .f32⟩
  | 7 => ⟨S32, .f32⟩
  | 8 => ⟨S32x64, .f32⟩
  | 9 => ⟨S64, .f32⟩
  | 10 => ⟨S64x128, .f32⟩
  | 11 => ⟨S128, .f32⟩
  | 12 => ⟨S128x256, .f32⟩
  | 13 => ⟨S256, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x64, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x64, .f32⟩
  | 86 => ⟨S850000x1, .f32⟩
  | 87 => ⟨S850000x64, .f32⟩
  | 88 => ⟨S850000x64, .f32⟩
  | 89 => ⟨S_, .f32⟩
  | 90 => ⟨S50000x64, .f32⟩
  | 91 => ⟨S850000x1, .i32⟩
  | 92 => ⟨S50000x64, .f32⟩
  | 93 => ⟨S1x64, .f32⟩
  | 94 => ⟨S50000x64, .f32⟩
  | 95 => ⟨S50000x32, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x32, .f32⟩
  | 105 => ⟨S850000x1, .f32⟩
  | 106 => ⟨S850000x32, .f32⟩
  | 107 => ⟨S850000x32, .f32⟩
  | 108 => ⟨S_, .f32⟩
  | 109 => ⟨S50000x32, .f32⟩
  | 110 => ⟨S850000x1, .i32⟩
  | 111 => ⟨S50000x32, .f32⟩
  | 112 => ⟨S1x32, .f32⟩
  | 113 => ⟨S50000x32, .f32⟩
  | 114 => ⟨S50000x64, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x64, .f32⟩
  | 124 => ⟨S850000x1, .f32⟩
  | 125 => ⟨S850000x64, .f32⟩
  | 126 => ⟨S850000x64, .f32⟩
  | 127 => ⟨S_, .f32⟩
  | _ => ⟨S50000x256, .f32⟩

abbrev hbmTy0_1 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .f32⟩
  | 5 => ⟨S50000x128, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x1, .f32⟩
  | 16 => ⟨S850000x128, .f32⟩
  | 17 => ⟨S850000x128, .f32⟩
  | 18 => ⟨S_, .f32⟩
  | 19 => ⟨S50000x128, .f32⟩
  | 20 => ⟨S850000x1, .i32⟩
  | 21 => ⟨S50000x128, .f32⟩
  | 22 => ⟨S1x128, .f32⟩
  | 23 => ⟨S50000x128, .f32⟩
  | 24 => ⟨S50000x256, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000x256, .f32⟩
  | 34 => ⟨S850000x1, .f32⟩
  | 35 => ⟨S850000x256, .f32⟩
  | 36 => ⟨S850000x256, .f32⟩
  | 37 => ⟨S_, .f32⟩
  | 38 => ⟨S50000x256, .f32⟩
  | 39 => ⟨S850000x1, .i32⟩
  | 40 => ⟨S50000x256, .f32⟩
  | 41 => ⟨S1x256, .f32⟩
  | 42 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x256, .f32⟩
  | .local _ .vmem, ⟨53, _⟩ => ⟨S5000x256, .f32⟩
  | .local _ .vmem, ⟨54, _⟩ => ⟨S5000x256, .f32⟩
  | .local _ .vmem, ⟨55, _⟩ => ⟨S5000x256, .f32⟩
  | .local _ .vmem, ⟨56, _⟩ => ⟨S5000x256, .f32⟩
  | .local _ .vmem, ⟨57, _⟩ => ⟨S1x256, .f32⟩
  | .local _ .vmem, ⟨58, _⟩ => ⟨S5000x256, .f32⟩
  | .local _ .vmem, ⟨59, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_c_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_19 : Ref sig .tc := ⟨.hbm, 134, rfl⟩
abbrev main_v97 : Ref sig .tc := ⟨.hbm, 135, rfl⟩
abbrev main_v98 : Ref sig .tc := ⟨.hbm, 136, rfl⟩
abbrev main_c_20 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_21 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_22 : Ref sig .tc := ⟨.hbm, 153, rfl⟩
abbrev main_v113 : Ref sig .tc := ⟨.hbm, 154, rfl⟩
abbrev main_v114 : Ref sig .tc := ⟨.hbm, 155, rfl⟩
abbrev main_c_23 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_24 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x64_S5000x64_1_0_0_1_n_n_wf : DotDims.WF S5000x32 S32x64 S5000x64 [1] [0] [0] [1] [] []
  dot_S5000x64_S64x128_S5000x128_1_0_0_1_n_n_wf : DotDims.WF S5000x64 S64x128 S5000x128 [1] [0] [0] [1] [] []
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S50000x32.size a
  hwx4_2 : ∀ i : grid4.Coords, EltTy.bits .f32 = 32 ∨ (Rect.block (s := S50000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S50000x32.size a
  hwx5_2 : ∀ i : grid5.Coords, EltTy.bits .f32 = 32 ∨ (Rect.block (s := S50000x32) S5000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x256.size a ≤ S128x256.size a
  hwx10_1 : ∀ i : grid10.Coords, EltTy.bits .f32 = 32 ∨ (Rect.block (s := S128x256) S128x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x256.size a ≤ S50000x256.size a
  hwx10_2 : ∀ i : grid10.Coords, EltTy.bits .f32 = 32 ∨ (Rect.block (s := S50000x256) S5000x256.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x256.size a ≤ S50000x256.size a
  hwx11_0 : ∀ i : grid11.Coords, EltTy.bits .f32 = 32 ∨ (Rect.block (s := S50000x256) S5000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x256.size a ≤ S50000x256.size a
  hwx11_2 : ∀ i : grid11.Coords, EltTy.bits .f32 = 32 ∨ (Rect.block (s := S50000x256) S5000x256.size (cc11_transform_2 i) (hinb11_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v96) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v109) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v110) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v111) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v111) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S128x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v112) S5000x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v125) S5000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v127) S5000x256.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S850000x256 : Shape := ⟨2, ![850000, 256]⟩
abbrev S1x256 : Shape := ⟨2, ![1, 256]⟩

abbrev nBuf : Space → Nat
  | .hbm => 189
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S64x32, .f32⟩
  | 7 => ⟨S32, .f32⟩
  | 8 => ⟨S32x64, .f32⟩
  | 9 => ⟨S64, .f32⟩
  | 10 => ⟨S64x128, .f32⟩
  | 11 => ⟨S128, .f32⟩
  | 12 => ⟨S128x256, .f32⟩
  | 13 => ⟨S256, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x64, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x64, .f32⟩
  | 90 => ⟨S850000x1, .f32⟩
  | 91 => ⟨S850000x64, .f32⟩
  | 92 => ⟨S850000x64, .f32⟩
  | 93 => ⟨S_, .f32⟩
  | 94 => ⟨S50000x64, .f32⟩
  | 95 => ⟨S850000x1, .i32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x32, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x32, .f32⟩
  | 113 => ⟨S850000x1, .f32⟩
  | 114 => ⟨S850000x32, .f32⟩
  | 115 => ⟨S850000x32, .f32⟩
  | 116 => ⟨S_, .f32⟩
  | 117 => ⟨S50000x32, .f32⟩
  | 118 => ⟨S850000x1, .i32⟩
  | 119 => ⟨S50000x32, .f32⟩
  | 120 => ⟨S1x32, .f32⟩
  | 121 => ⟨S50000x32, .f32⟩
  | 122 => ⟨S50000x32, .f32⟩
  | 123 => ⟨S50000x64, .f32⟩
  | 124 => ⟨S_, .i32⟩
  | 125 => ⟨S850000, .i32⟩
  | 126 => ⟨S850000, .i1⟩
  | 127 => ⟨S_, .i32⟩
  | _ => ⟨S50000x256, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x64, .f32⟩
  | 5 => ⟨S850000x1, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x128, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000x128, .f32⟩
  | 28 => ⟨S850000x1, .f32⟩
  | 29 => ⟨S850000x128, .f32⟩
  | 30 => ⟨S850000x128, .f32⟩
  | 31 => ⟨S_, .f32⟩
  | 32 => ⟨S50000x128, .f32⟩
  | 33 => ⟨S850000x1, .i32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x256, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x256, .f32⟩
  | 51 => ⟨S850000x1, .f32⟩
  | 52 => ⟨S850000x256, .f32⟩
  | 53 => ⟨S850000x256, .f32⟩
  | 54 => ⟨S_, .f32⟩
  | 55 => ⟨S50000x256, .f32⟩
  | 56 => ⟨S850000x1, .i32⟩
  | 57 => ⟨S50000x256, .f32⟩
  | 58 => ⟨S1x256, .f32⟩
  | 59 => ⟨S50000x256, .f32⟩
  | 60 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_cst : Ref sig .tc := ⟨.hbm, 100, rfl⟩
abbrev main_call2_v0 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call3_cst : Ref sig .tc := ⟨.hbm, 143, rfl⟩
abbrev main_call3_v0 : Ref sig .tc := ⟨.hbm, 144, rfl⟩
abbrev main_v102 : Ref sig .tc := ⟨.hbm, 145, rfl⟩
abbrev main_v103 : Ref sig .tc := ⟨.hbm, 146, rfl⟩
abbrev main_c_19 : Ref sig .tc := ⟨.hbm, 147, rfl⟩
abbrev main_v104 : Ref sig .tc := ⟨.hbm, 148, rfl⟩
abbrev main_v105 : Ref sig .tc := ⟨.hbm, 149, rfl⟩
abbrev main_c_20 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_21 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call4_cst : Ref sig .tc := ⟨.hbm, 166, rfl⟩
abbrev main_call4_v0 : Ref sig .tc := ⟨.hbm, 167, rfl⟩
abbrev main_v120 : Ref sig .tc := ⟨.hbm, 168, rfl⟩
abbrev main_v121 : Ref sig .tc := ⟨.hbm, 169, rfl⟩
abbrev main_c_22 : Ref sig .tc := ⟨.hbm, 170, rfl⟩
abbrev main_v122 : Ref sig .tc := ⟨.hbm, 171, rfl⟩
abbrev main_v123 : Ref sig .tc := ⟨.hbm, 172, rfl⟩
abbrev main_c_23 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_24 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  dot_S50000x64_S64x128_S50000x128_1_0_0_1_n_n_wf : DotDims.WF S50000x64 S64x128 S50000x128 [1] [0] [0] [1] [] []
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KRun.lean ====
/-
  The idealized kernel's run with its result named.

  The kernel's program is twelve launches among stretches of host operations. Its buffers' contents at each boundary
  are a fold from the launch memory: a host stretch applies its operations, a launch leaves its arrays at what its
  write-backs fold to and every other buffer as it found it. Every weakly fair execution terminates with every
  unscoped buffer at the last boundary's contents; here that is kept for the result buffer as well as for the
  arguments, which end as launched.
-/
import proofs.«178092_j65704409694294_1_alg».proof.Proof.Gen.KernelIdeal.Frame

set_option maxRecDepth 16384

noncomputable section

namespace Cert.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at
    the last boundary's contents and the argument arrays as launched. -/
theorem run_named : θ_run defs (onTc (τ := τ) (main (F := F))) ⟨m, fun _ => 0, ρ⟩ (fun r => ∀ c : Dev nD,
      r.2.mem ((c.tc : Thread nD τ).loc main_v127) = W21 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v127 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c)⟩)

end Cert.KV

end
-- ==== Proof.Spec.lean ====
/-
  The two whole-array functions a layer's launches compute, index by index, over the extended reals.

  A layer of the network is a linear map of the node features followed, after the messages are gathered, scaled and
  summed per node by host operations, by a bias row added to every node and (in four of the six layers) a maximum
  with zero. The linear map's entry (r, q) is the sum over k of h (r, k) · W (k, q); the bias step's entry (r, q)
  is agg (r, q) + b (0, q), or its maximum with zero.
-/
import Idealize.ShloMosaic.PureOps.Ideal.Laws
import Idealize.ShloMosaic.Lib.ValueIdx
import Idealize.ShloMosaic.Lib.Pipeline.Value

noncomputable section

open scoped BigOperators

namespace Cert.KV

open Idealize.ShloMosaic Idealize.ShloMosaic.ValueIdx

/-- The zero offset of a rank-2 rectangle. -/
theorem hz2 : (![0, 0] : Fin 2 → Nat) = fun _ => 0 := funext fun a => by fin_cases a <;> rfl

/-- Rows times columns: entry (r, q) is the sum over k of a (r, k) · b (k, q). -/
def rowsTimesCols {M K N : Nat} (a : (⟨2, ![M, K]⟩ : Shape).Idx → Ideal .f32) (b : (⟨2, ![K, N]⟩ : Shape).Idx → Ideal .f32) :
    (⟨2, ![M, N]⟩ : Shape).Idx → Ideal .f32 :=
  fun i => ∑ k : Fin K, a (ix2 (⟨(i 0).val, idx2_lt0 i⟩ : Fin M) k) * b (ix2 k (⟨(i 1).val, idx2_lt1 i⟩ : Fin N))

/-- A bias row added to every row: entry (r, q) is a (r, q) + b (0, q). -/
def addRow {M N : Nat} (a : (⟨2, ![M, N]⟩ : Shape).Idx → Ideal .f32) (b : (⟨2, ![1, N]⟩ : Shape).Idx → Ideal .f32) :
    (⟨2, ![M, N]⟩ : Shape).Idx → Ideal .f32 :=
  fun i => FloatOps.addf (F := Ideal) (φ := .f32) (a i) (b (ix2 (⟨0, Nat.one_pos⟩ : Fin 1) (⟨(i 1).val, idx2_lt1 i⟩ : Fin N)))

/-- The same, then the maximum with zero. -/
def addRowMax {M N : Nat} (a : (⟨2, ![M, N]⟩ : Shape).Idx → Ideal .f32) (b : (⟨2, ![1, N]⟩ : Shape).Idx → Ideal .f32) :
    (⟨2, ![M, N]⟩ : Shape).Idx → Ideal .f32 :=
  fun i => FloatOps.maximumf (F := Ideal) (φ := .f32) (addRow a b i) (FloatOps.ofBits (F := Ideal) .f32 0x00000000#32)

end Cert.KV

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.MM10.lean ====
/-
  Launch 10: the linear map of a layer, tiled over ten blocks of 5000 rows.

  At grid point t the body loads rows 5000·t … 5000·t + 4999 of the features (all 128 columns) and the whole
  128 × 256 weight matrix, multiplies them into a zero accumulator (the narrowing of both operands to bf16 is the
  identity over the extended reals) and stores the 5000 × 256 product, which is written back as block t of the
  result. So entry (r, q) of the result is the sum over k of features (r, k) · weights (k, q), whatever the launch
  found in the result array: the ten blocks cover it.
-/
import proofs.«178092_j65704409694294_1_alg».proof.Proof.Gen.KernelIdeal.Frame
import proofs.«178092_j65704409694294_1_alg».proof.Proof.Spec
import proofs.«178092_j65704409694294_1_alg».proof.Proof.LibPlainDot

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at row p, column q of its block: the sum over k of the loaded rows' (p, k) times the loaded
    weights' (k, q). -/
theorem pay10_at (x0 : Vec Ideal S5000x128 .f32) (x1 : Vec Ideal S128x256 .f32) (p : Fin 5000) (q : Fin 256) :
    k10_pay1 (F := Ideal) x0 x1 (ix2 p q) = ∑ k : Fin 128, x0 (ix2 p k) * x1 (ix2 k q) := by
  unfold k10_pay1
  try simp only [shapeCast_self]
  exact Cert.PlainDot.matmul_zero_apply dot_S5000x128_S128x256_S5000x256_1_0_0_1_n_n rfl rfl rfl rfl rfl rfl none _ _ p q

/-- The printed index maps, decided over the ten grid points: the features' and the result's block row is the
    point, every other block index is zero. -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point t writes back is block t of the product of the arrays the launch found. -/
theorem flushed10 (c : Dev nD) (t : Fin cfg10.N) :
    (dat10 V c).flushed 2 t
      = ((cfg10.win 2).blk t).view.read (Elt Ideal) (rowsTimesCols (M := 50000) (K := 128) (N := 256) (V c main_v111) (V c main_arg12)) := by
  show (cfg10.win 2).cut (grid10.coords t) ((dat10 V c).after 2 t) = _
  rw [after10_2]
  unfold out10_2
  rw [View.canon_unit_zero hz2]
  simp only [View.ld_unit_zero (S := S5000x128) hz2, View.ld_unit_zero (S := S128x256) hz2]
  obtain ⟨e0, e1, e2, e3, e4, e5⟩ := idx_facts10 t
  funext j
  obtain ⟨p, q, rfl⟩ : ∃ (p : Fin 5000) (q : Fin 256), j = ix2 p q := ⟨j 0, j 1, eq_ix2 j⟩
  refine (pay10_at (iblk10 V c 0 t) (iblk10 V c 1 t) p q).trans ?_
  rw [View.read_apply]
  unfold rowsTimesCols
  refine Finset.sum_congr rfl fun k _ => ?_
  have h0 : iblk10 V c 0 t (ix2 p k) = V c main_v111 (ix2 (⟨win10_2.index t (0 : Fin 2) * 5000 + 1 * p.val, by have := p.isLt; have := t.isLt; have hN : cfg10.N = 10 := N_10; omega⟩ : Fin 50000) k) := by
    show V c main_v111 (((cfg10.win 0).blk t).view.emb (ix2 p k)) = _
    refine congrArg (V c main_v111) (funext fun a => Fin.ext ?_)
    match a with
    | ⟨0, _⟩ => show win10_0.index t (0 : Fin 2) * 5000 + 1 * p.val = win10_2.index t (0 : Fin 2) * 5000 + 1 * p.val; omega
    | ⟨1, _⟩ => show win10_0.index t (1 : Fin 2) * 128 + 1 * k.val = k.val; omega
  have h1 : iblk10 V c 1 t (ix2 k q) = V c main_arg12 (ix2 k (⟨win10_2.index t (1 : Fin 2) * 256 + 1 * q.val, by have := q.isLt; omega⟩ : Fin 256)) := by
    show V c main_arg12 (((cfg10.win 1).blk t).view.emb (ix2 k q)) = _
    refine congrArg (V c main_arg12) (funext fun a => Fin.ext ?_)
    match a with
    | ⟨0, _⟩ => show win10_1.index t (0 : Fin 2) * 128 + 1 * k.val = k.val; omega
    | ⟨1, _⟩ => show win10_1.index t (1 : Fin 2) * 256 + 1 * q.val = win10_2.index t (1 : Fin 2) * 256 + 1 * q.val; omega
  rw [h0, h1]
  rfl

/-- An index of the result array is in point t's block iff each coordinate is in the block's range on its axis. -/
theorem mem_blk10 (t : Fin cfg10.N) (i : S50000x256.Idx) :
    i ∈ ((cfg10.win 2).blk t).view.set ↔ ∀ a : Fin 2, win10_2.index t a * S5000x256.size a ≤ (i a).val ∧ (i a).val < win10_2.index t a * S5000x256.size a + S5000x256.size a := by
  show i ∈ ((View.whole (Pipeline.arrRef spec10 2)).slice (win10_2.rect t)).set ↔ _
  rw [View.set_slice_whole, Rect.mem_set_unit]
  exact Iff.rfl

/-- Every index of the result array is in the block of the point its row falls in. -/
theorem cover10 (i : S50000x256.Idx) :
    ∃ t : Fin cfg10.N, (cfg10.win 2).flush t = true ∧ i ∈ ((cfg10.win 2).blk t).view.set := by
  have hi0 : (i 0).val < 50000 := (i 0).isLt
  have hi1 : (i 1).val < 256 := (i 1).isLt
  have hN := N_10
  refine ⟨⟨(i 0).val / 5000, by show _ < grid10.N; omega⟩, flush10_2 _, ?_⟩
  obtain ⟨e0, e1, e2, e3, e4, e5⟩ := idx_facts10 ⟨(i 0).val / 5000, by show _ < grid10.N; omega⟩
  rw [mem_blk10]
  intro a
  match a with
  | ⟨0, _⟩ => show win10_2.index _ (0 : Fin 2) * 5000 ≤ (i 0).val ∧ (i 0).val < win10_2.index _ (0 : Fin 2) * 5000 + 5000; rw [e4]; show (i 0).val / 5000 * 5000 ≤ _ ∧ _ < (i 0).val / 5000 * 5000 + 5000; omega
  | ⟨1, _⟩ => show win10_2.index _ (1 : Fin 2) * 256 ≤ (i 1).val ∧ (i 1).val < win10_2.index _ (1 : Fin 2) * 256 + 256; rw [e5]; omega

/-- THE RESULT ARRAY after the launch: the product of the two arrays the launch found. -/
theorem final10 (c : Dev nD) :
    (dat10 V c).arrAt 2 cfg10.N = rowsTimesCols (M := 50000) (K := 128) (N := 256) (V c main_v111) (V c main_arg12) :=
  (dat10 V c).arrAt_eq_of_cover 2 _ (fun t _ => flushed10 V c t) (cover10)

end Cert.KV

end
-- ==== Proof.BA11.lean ====
/-
  Launch 11: the bias step of a layer, tiled over ten blocks of 5000 rows.

  At grid point t the body loads rows 5000·t … 5000·t + 4999 of the aggregated messages and the one bias row,
  repeats the bias row down the block, adds and stores the block, which is written back
  as block t of the result. So entry (r, q) of the result is agg (r, q) + bias (0, q),
  whatever the launch found in the result array: the ten blocks cover it.
-/
import proofs.«178092_j65704409694294_1_alg».proof.Proof.Gen.KernelIdeal.Frame
import proofs.«178092_j65704409694294_1_alg».proof.Proof.Spec

set_option maxRecDepth 16384

noncomputable section

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at row p, column q of its block: the loaded entry plus the bias row's entry q
    (the same-shape casts are the identity; the bias row is repeated down the rows). -/
theorem pay11_at (x0 : Vec Ideal S5000x256 .f32) (x1 : Vec Ideal S1x256 .f32) (p : Fin 5000) (q : Fin 256) :
    k11_pay1 (F := Ideal) x0 x1 (ix2 p q) = FloatOps.addf (F := Ideal) (φ := .f32) (x0 (ix2 p q)) (x1 (ix2 (⟨0, Nat.one_pos⟩ : Fin 1) q)) := by
  unfold k11_pay1
  simp only [shapeCast_self]
  have hb : broadcastTo S5000x256 x1 broadcasts_S1x256_S5000x256 (ix2 p q) = x1 (ix2 (⟨0, Nat.one_pos⟩ : Fin 1) q) :=
    broadcastTo_apply x1 broadcasts_S1x256_S5000x256 (ix2 p q) (ix2 (⟨0, Nat.one_pos⟩ : Fin 1) q) (fun a => match a with
      | ⟨0, _⟩ => by show (0 : Nat) = if (1 : Nat) = 1 then 0 else _; rw [if_pos rfl]
      | ⟨1, _⟩ => by show q.val = if (256 : Nat) = 1 then 0 else q.val; rw [if_neg (by decide)])
  show FloatOps.addf (F := Ideal) (φ := .f32) (x0 (ix2 p q)) (broadcastTo S5000x256 x1 broadcasts_S1x256_S5000x256 (ix2 p q)) = _
  rw [hb]

/-- The printed index maps, decided over the ten grid points: the aggregate's and the result's block row is the
    point, every other block index is zero. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point t writes back is block t of the bias step of the arrays the launch found. -/
theorem flushed11 (c : Dev nD) (t : Fin cfg11.N) :
    (dat11 V c).flushed 2 t
      = ((cfg11.win 2).blk t).view.read (Elt Ideal) (addRow (M := 50000) (N := 256) (V c main_v125) (V c main_v126)) := by
  show (cfg11.win 2).cut (grid11.coords t) ((dat11 V c).after 2 t) = _
  rw [after11_2]
  unfold out11_2
  rw [View.canon_unit_zero hz2]
  simp only [View.ld_unit_zero (S := S5000x256) hz2, View.ld_unit_zero (S := S1x256) hz2]
  obtain ⟨e0, e1, e2, e3, e4, e5⟩ := idx_facts11 t
  funext j
  obtain ⟨p, q, rfl⟩ : ∃ (p : Fin 5000) (q : Fin 256), j = ix2 p q := ⟨j 0, j 1, eq_ix2 j⟩
  refine (pay11_at (iblk11 V c 0 t) (iblk11 V c 1 t) p q).trans ?_
  have h0 : iblk11 V c 0 t (ix2 p q) = V c main_v125 (((cfg11.win 2).blk t).view.emb (ix2 p q)) := by
    show V c main_v125 (((cfg11.win 0).blk t).view.emb (ix2 p q)) = _
    refine congrArg (V c main_v125) (funext fun a => Fin.ext ?_)
    match a with
    | ⟨0, _⟩ => show win11_0.index t (0 : Fin 2) * 5000 + 1 * p.val = win11_2.index t (0 : Fin 2) * 5000 + 1 * p.val; omega
    | ⟨1, _⟩ => show win11_0.index t (1 : Fin 2) * 256 + 1 * q.val = win11_2.index t (1 : Fin 2) * 256 + 1 * q.val; omega
  have h1 : iblk11 V c 1 t (ix2 (⟨0, Nat.one_pos⟩ : Fin 1) q)
      = V c main_v126 (ix2 (⟨0, Nat.one_pos⟩ : Fin 1) (⟨win11_2.index t (1 : Fin 2) * 256 + 1 * q.val, by have := q.isLt; omega⟩ : Fin 256)) := by
    show V c main_v126 (((cfg11.win 1).blk t).view.emb (ix2 (⟨0, Nat.one_pos⟩ : Fin 1) q)) = _
    refine congrArg (V c main_v126) (funext fun a => Fin.ext ?_)
    match a with
    | ⟨0, _⟩ => show win11_1.index t (0 : Fin 2) * 1 + 1 * 0 = 0; omega
    | ⟨1, _⟩ => show win11_1.index t (1 : Fin 2) * 256 + 1 * q.val = win11_2.index t (1 : Fin 2) * 256 + 1 * q.val; omega
  rw [h0, h1]
  rfl

/-- An index of the result array is in point t's block iff each coordinate is in the block's range on its axis. -/
theorem mem_blk11 (t : Fin cfg11.N) (i : S50000x256.Idx) :
    i ∈ ((cfg11.win 2).blk t).view.set ↔ ∀ a : Fin 2, win11_2.index t a * S5000x256.size a ≤ (i a).val ∧ (i a).val < win11_2.index t a * S5000x256.size a + S5000x256.size a := by
  show i ∈ ((View.whole (Pipeline.arrRef spec11 2)).slice (win11_2.rect t)).set ↔ _
  rw [View.set_slice_whole, Rect.mem_set_unit]
  exact Iff.rfl

/-- Every index of the result array is in the block of the point its row falls in. -/
theorem cover11 (i : S50000x256.Idx) :
    ∃ t : Fin cfg11.N, (cfg11.win 2).flush t = true ∧ i ∈ ((cfg11.win 2).blk t).view.set := by
  have hi0 : (i 0).val < 50000 := (i 0).isLt
  have hi1 : (i 1).val < 256 := (i 1).isLt
  have hN := N_11
  refine ⟨⟨(i 0).val / 5000, by show _ < grid11.N; omega⟩, flush11_2 _, ?_⟩
  obtain ⟨e0, e1, e2, e3, e4, e5⟩ := idx_facts11 ⟨(i 0).val / 5000, by show _ < grid11.N; omega⟩
  rw [mem_blk11]
  intro a
  match a with
  | ⟨0, _⟩ => show win11_2.index _ (0 : Fin 2) * 5000 ≤ (i 0).val ∧ (i 0).val < win11_2.index _ (0 : Fin 2) * 5000 + 5000; rw [e4]; show (i 0).val / 5000 * 5000 ≤ _ ∧ _ < (i 0).val / 5000 * 5000 + 5000; omega
  | ⟨1, _⟩ => show win11_2.index _ (1 : Fin 2) * 256 ≤ (i 1).val ∧ (i 1).val < win11_2.index _ (1 : Fin 2) * 256 + 256; rw [e5]; omega

/-- THE RESULT ARRAY after the launch: the bias step of the two arrays the launch found. -/
theorem final11 (c : Dev nD) :
    (dat11 V c).arrAt 2 cfg11.N = addRow (M := 50000) (N := 256) (V c main_v125) (V c main_v126) :=
  (dat11 V c).arrAt_eq_of_cover 2 _ (fun t _ => flushed11 V c t) (cover11)

end Cert.KV

end
-- ==== Proof.KeepArgs.lean ====
/-
  The argument arrays are as launched when the segment that reads them is entered.

  No host operation and no launch before that segment writes an argument array: a launch writes only its own result
  array, a host stretch only its own results. So the contents of an argument's buffer at the boundary where it is
  read walk back, segment by segment, to the launch memory.
-/
import proofs.«178092_j65704409694294_1_alg».proof.Proof.Gen.KernelIdeal.Frame

set_option maxRecDepth 16384

noncomputable section

namespace Cert.KV

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of them writes as it was: each operation's written buffer is
    compared with the buffer in question. -/
local macro "host_untouched " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Argument 0 at boundary 3 is as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_untouched hostOps0_2
    _ = W1 m ρ c (Proc.devRef .tc main_arg0) := by host_untouched hostOps0_1
    _ = W0 m ρ c (Proc.devRef .tc main_arg0) := by host_untouched hostOps0
    _ = m ((c : Thread nD τ).loc main_arg0) := rfl

/-- Argument 2 at boundary 3 is as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_untouched hostOps0_2
    _ = W1 m ρ c (Proc.devRef .tc main_arg2) := by host_untouched hostOps0_1
    _ = W0 m ρ c (Proc.devRef .tc main_arg2) := by host_untouched hostOps0
    _ = m ((c : Thread nD τ).loc main_arg2) := rfl

/-- Argument 3 at boundary 4 is as launched. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_untouched hostOps0_2
    _ = W1 m ρ c (Proc.devRef .tc main_arg3) := by host_untouched hostOps0_1
    _ = W0 m ρ c (Proc.devRef .tc main_arg3) := by host_untouched hostOps0
    _ = m ((c : Thread nD τ).loc main_arg3) := rfl

/-- Argument 4 at boundary 6 is as launched. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_untouched hostOps1
    _ = W3 m ρ c (Proc.devRef .tc main_arg4) := W4_of_ne m ρ c main_arg4 (by decide)
    _ = W2 m ρ c (Proc.devRef .tc main_arg4) := by host_untouched hostOps0_2
    _ = W1 m ρ c (Proc.devRef .tc main_arg4) := by host_untouched hostOps0_1
    _ = W0 m ρ c (Proc.devRef .tc main_arg4) := by host_untouched hostOps0
    _ = m ((c : Thread nD τ).loc main_arg4) := rfl

/-- Argument 5 at boundary 7 is as launched. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_untouched hostOps1
    _ = W3 m ρ c (Proc.devRef .tc main_arg5) := W4_of_ne m ρ c main_arg5 (by decide)
    _ = W2 m ρ c (Proc.devRef .tc main_arg5) := by host_untouched hostOps0_2
    _ = W1 m ρ c (Proc.devRef .tc main_arg5) := by host_untouched hostOps0_1
    _ = W0 m ρ c (Proc.devRef .tc main_arg5) := by host_untouched hostOps0
    _ = m ((c : Thread nD τ).loc main_arg5) := rfl

/-- Argument 6 at boundary 9 is as launched. -/
theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by host_untouched hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_untouched hostOps1
    _ = W3 m ρ c (Proc.devRef .tc main_arg6) := W4_of_ne m ρ c main_arg6 (by decide)
    _ = W2 m ρ c (Proc.devRef .tc main_arg6) := by host_untouched hostOps0_2
    _ = W1 m ρ c (Proc.devRef .tc main_arg6) := by host_untouched hostOps0_1
    _ = W0 m ρ c (Proc.devRef .tc main_arg6) := by host_untouched hostOps0
    _ = m ((c : Thread nD τ).loc main_arg6) := rfl

/-- Argument 7 at boundary 10 is as launched. -/
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by host_untouched hostOps3
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_untouched hostOps1
    _ = W3 m ρ c (Proc.devRef .tc main_arg7) := W4_of_ne m ρ c main_arg7 (by decide)
    _ = W2 m ρ c (Proc.devRef .tc main_arg7) := by host_untouched hostOps0_2
    _ = W1 m ρ c (Proc.devRef .tc main_arg7) := by host_untouched hostOps0_1
    _ = W0 m ρ c (Proc.devRef .tc main_arg7) := by host_untouched hostOps0
    _ = m ((c : Thread nD τ).loc main_arg7) := rfl

/-- Argument 8 at boundary 12 is as launched. -/
theorem W12_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_untouched hostOps5
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by host_untouched hostOps3
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_untouched hostOps1
    _ = W3 m ρ c (Proc.devRef .tc main_arg8) := W4_of_ne m ρ c main_arg8 (by decide)
    _ = W2 m ρ c (Proc.devRef .tc main_arg8) := by host_untouched hostOps0_2
    _ = W1 m ρ c (Proc.devRef .tc main_arg8) := by host_untouched hostOps0_1
    _ = W0 m ρ c (Proc.devRef .tc main_arg8) := by host_untouched hostOps0
    _ = m ((c : Thread nD τ).loc main_arg8) := rfl

/-- Argument 9 at boundary 13 is as launched. -/
theorem W13_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := by host_untouched hostOps5
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_untouched hostOps3
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_untouched hostOps1
    _ = W3 m ρ c (Proc.devRef .tc main_arg9) := W4_of_ne m ρ c main_arg9 (by decide)
    _ = W2 m ρ c (Proc.devRef .tc main_arg9) := by host_untouched hostOps0_2
    _ = W1 m ρ c (Proc.devRef .tc main_arg9) := by host_untouched hostOps0_1
    _ = W0 m ρ c (Proc.devRef .tc main_arg9) := by host_untouched hostOps0
    _ = m ((c : Thread nD τ).loc main_arg9) := rfl

/-- Argument 10 at boundary 15 is as launched. -/
theorem W15_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := by host_untouched hostOps7
    _ = W12 m ρ c (Proc.devRef .tc main_arg10) := W13_of_ne m ρ c main_arg10 (by decide)
    _ = W11 m ρ c (Proc.devRef .tc main_arg10) := W12_of_ne m ρ c main_arg10 (by decide)
    _ = W10 m ρ c (Proc.devRef .tc main_arg10) := by host_untouched hostOps5
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by host_untouched hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_untouched hostOps1
    _ = W3 m ρ c (Proc.devRef .tc main_arg10) := W4_of_ne m ρ c main_arg10 (by decide)
    _ = W2 m ρ c (Proc.devRef .tc main_arg10) := by host_untouched hostOps0_2
    _ = W1 m ρ c (Proc.devRef .tc main_arg10) := by host_untouched hostOps0_1
    _ = W0 m ρ c (Proc.devRef .tc main_arg10) := by host_untouched hostOps0
    _ = m ((c : Thread nD τ).loc main_arg10) := rfl

/-- Argument 11 at boundary 16 is as launched. -/
theorem W16_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := W15_of_ne m ρ c main_arg11 (by decide)
    _ = W13 m ρ c (Proc.devRef .tc main_arg11) := by host_untouched hostOps7
    _ = W12 m ρ c (Proc.devRef .tc main_arg11) := W13_of_ne m ρ c main_arg11 (by decide)
    _ = W11 m ρ c (Proc.devRef .tc main_arg11) := W12_of_ne m ρ c main_arg11 (by decide)
    _ = W10 m ρ c (Proc.devRef .tc main_arg11) := by host_untouched hostOps5
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := by host_untouched hostOps3
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by host_untouched hostOps1
    _ = W3 m ρ c (Proc.devRef .tc main_arg11) := W4_of_ne m ρ c main_arg11 (by decide)
    _ = W2 m ρ c (Proc.devRef .tc main_arg11) := by host_untouched hostOps0_2
    _ = W1 m ρ c (Proc.devRef .tc main_arg11) := by host_untouched hostOps0_1
    _ = W0 m ρ c (Proc.devRef .tc main_arg11) := by host_untouched hostOps0
    _ = m ((c : Thread nD τ).loc main_arg11) := rfl

/-- Argument 12 at boundary 18 is as launched. -/
theorem W18_arg12 (c : Dev nD) : W18 m ρ c (Proc.devRef .tc main_arg12) = m ((c : Thread nD τ).loc main_arg12) :=
  calc W18 m ρ c (Proc.devRef .tc main_arg12)
    _ = W17 m ρ c (Proc.devRef .tc main_arg12) := W18_of_ne m ρ c main_arg12 (by decide)
    _ = W16 m ρ c (Proc.devRef .tc main_arg12) := by host_untouched hostOps9
    _ = W15 m ρ c (Proc.devRef .tc main_arg12) := W16_of_ne m ρ c main_arg12 (by decide)
    _ = W14 m ρ c (Proc.devRef .tc main_arg12) := W15_of_ne m ρ c main_arg12 (by decide)
    _ = W13 m ρ c (Proc.devRef .tc main_arg12) := by host_untouched hostOps7
    _ = W12 m ρ c (Proc.devRef .tc main_arg12) := W13_of_ne m ρ c main_arg12 (by decide)
    _ = W11 m ρ c (Proc.devRef .tc main_arg12) := W12_of_ne m ρ c main_arg12 (by decide)
    _ = W10 m ρ c (Proc.devRef .tc main_arg12) := by host_untouched hostOps5
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := by host_untouched hostOps3
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by host_untouched hostOps1
    _ = W3 m ρ c (Proc.devRef .tc main_arg12) := W4_of_ne m ρ c main_arg12 (by decide)
    _ = W2 m ρ c (Proc.devRef .tc main_arg12) := by host_untouched hostOps0_2
    _ = W1 m ρ c (Proc.devRef .tc main_arg12) := by host_untouched hostOps0_1
    _ = W0 m ρ c (Proc.devRef .tc main_arg12) := by host_untouched hostOps0
    _ = m ((c : Thread nD τ).loc main_arg12) := rfl

/-- Argument 13 at boundary 19 is as launched. -/
theorem W19_arg13 (c : Dev nD) : W19 m ρ c (Proc.devRef .tc main_arg13) = m ((c : Thread nD τ).loc main_arg13) :=
  calc W19 m ρ c (Proc.devRef .tc main_arg13)
    _ = W18 m ρ c (Proc.devRef .tc main_arg13) := W19_of_ne m ρ c main_arg13 (by decide)
    _ = W17 m ρ c (Proc.devRef .tc main_arg13) := W18_of_ne m ρ c main_arg13 (by decide)
    _ = W16 m ρ c (Proc.devRef .tc main_arg13) := by host_untouched hostOps9
    _ = W15 m ρ c (Proc.devRef .tc main_arg13) := W16_of_ne m ρ c main_arg13 (by decide)
    _ = W14 m ρ c (Proc.devRef .tc main_arg13) := W15_of_ne m ρ c main_arg13 (by decide)
    _ = W13 m ρ c (Proc.devRef .tc main_arg13) := by host_untouched hostOps7
    _ = W12 m ρ c (Proc.devRef .tc main_arg13) := W13_of_ne m ρ c main_arg13 (by decide)
    _ = W11 m ρ c (Proc.devRef .tc main_arg13) := W12_of_ne m ρ c main_arg13 (by decide)
    _ = W10 m ρ c (Proc.devRef .tc main_arg13) := by host_untouched hostOps5
    _ = W9 m ρ c (Proc.devRef .tc main_arg13) := W10_of_ne m ρ c main_arg13 (by decide)
    _ = W8 m ρ c (Proc.devRef .tc main_arg13) := W9_of_ne m ρ c main_arg13 (by decide)
    _ = W7 m ρ c (Proc.devRef .tc main_arg13) := by host_untouched hostOps3
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by host_untouched hostOps1
    _ = W3 m ρ c (Proc.devRef .tc main_arg13) := W4_of_ne m ρ c main_arg13 (by decide)
    _ = W2 m ρ c (Proc.devRef .tc main_arg13) := by host_untouched hostOps0_2
    _ = W1 m ρ c (Proc.devRef .tc main_arg13) := by host_untouched hostOps0_1
    _ = W0 m ρ c (Proc.devRef .tc main_arg13) := by host_untouched hostOps0
    _ = m ((c : Thread nD τ).loc main_arg13) := rfl

end Cert.KV

end
-- ==== Proof.KeepIdx.lean ====
/-
  The message sources, targets and normalization weights are unchanged from the prelude on.

  The three per-message arrays the prelude computes (source index, target index, normalization weight) are read again
  by the host operations of every layer. No launch and no later host stretch writes them, so at each of those
  boundaries they hold what they held when the prelude ended.
-/
import proofs.«178092_j65704409694294_1_alg».proof.Proof.Gen.KernelIdeal.Frame

set_option maxRecDepth 16384

noncomputable section

namespace Cert.KV

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of them writes as it was: each operation's written buffer is
    compared with the buffer in question. -/
local macro "host_untouched " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- main_v3 at boundary 4 is what it was when the prelude ended. -/
theorem W4_main_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- main_v3 at boundary 7 is what it was when the prelude ended. -/
theorem W7_main_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_untouched hostOps1
    _ = W3 m ρ c (Proc.devRef .tc main_v3) := W4_main_v3 m ρ c

/-- main_v3 at boundary 10 is what it was when the prelude ended. -/
theorem W10_main_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_untouched hostOps3
    _ = W3 m ρ c (Proc.devRef .tc main_v3) := W7_main_v3 m ρ c

/-- main_v3 at boundary 13 is what it was when the prelude ended. -/
theorem W13_main_v3 (c : Dev nD) : W13 m ρ c (Proc.devRef .tc main_v3) = W3 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := by host_untouched hostOps5
    _ = W3 m ρ c (Proc.devRef .tc main_v3) := W10_main_v3 m ρ c

/-- main_v3 at boundary 16 is what it was when the prelude ended. -/
theorem W16_main_v3 (c : Dev nD) : W16 m ρ c (Proc.devRef .tc main_v3) = W3 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := W15_of_ne m ρ c main_v3 (by decide)
    _ = W13 m ρ c (Proc.devRef .tc main_v3) := by host_untouched hostOps7
    _ = W3 m ρ c (Proc.devRef .tc main_v3) := W13_main_v3 m ρ c

/-- main_v3 at boundary 19 is what it was when the prelude ended. -/
theorem W19_main_v3 (c : Dev nD) : W19 m ρ c (Proc.devRef .tc main_v3) = W3 m ρ c (Proc.devRef .tc main_v3) :=
  calc W19 m ρ c (Proc.devRef .tc main_v3)
    _ = W18 m ρ c (Proc.devRef .tc main_v3) := W19_of_ne m ρ c main_v3 (by decide)
    _ = W17 m ρ c (Proc.devRef .tc main_v3) := W18_of_ne m ρ c main_v3 (by decide)
    _ = W16 m ρ c (Proc.devRef .tc main_v3) := by host_untouched hostOps9
    _ = W3 m ρ c (Proc.devRef .tc main_v3) := W16_main_v3 m ρ c

/-- main_v6 at boundary 4 is what it was when the prelude ended. -/
theorem W4_main_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- main_v6 at boundary 7 is what it was when the prelude ended. -/
theorem W7_main_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_untouched hostOps1
    _ = W3 m ρ c (Proc.devRef .tc main_v6) := W4_main_v6 m ρ c

/-- main_v6 at boundary 10 is what it was when the prelude ended. -/
theorem W10_main_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_untouched hostOps3
    _ = W3 m ρ c (Proc.devRef .tc main_v6) := W7_main_v6 m ρ c

/-- main_v6 at boundary 13 is what it was when the prelude ended. -/
theorem W13_main_v6 (c : Dev nD) : W13 m ρ c (Proc.devRef .tc main_v6) = W3 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := by host_untouched hostOps5
    _ = W3 m ρ c (Proc.devRef .tc main_v6) := W10_main_v6 m ρ c

/-- main_v6 at boundary 16 is what it was when the prelude ended. -/
theorem W16_main_v6 (c : Dev nD) : W16 m ρ c (Proc.devRef .tc main_v6) = W3 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := W15_of_ne m ρ c main_v6 (by decide)
    _ = W13 m ρ c (Proc.devRef .tc main_v6) := by host_untouched hostOps7
    _ = W3 m ρ c (Proc.devRef .tc main_v6) := W13_main_v6 m ρ c

/-- main_v6 at boundary 19 is what it was when the prelude ended. -/
theorem W19_main_v6 (c : Dev nD) : W19 m ρ c (Proc.devRef .tc main_v6) = W3 m ρ c (Proc.devRef .tc main_v6) :=
  calc W19 m ρ c (Proc.devRef .tc main_v6)
    _ = W18 m ρ c (Proc.devRef .tc main_v6) := W19_of_ne m ρ c main_v6 (by decide)
    _ = W17 m ρ c (Proc.devRef .tc main_v6) := W18_of_ne m ρ c main_v6 (by decide)
    _ = W16 m ρ c (Proc.devRef .tc main_v6) := by host_untouched hostOps9
    _ = W3 m ρ c (Proc.devRef .tc main_v6) := W16_main_v6 m ρ c

/-- main_v31 at boundary 4 is what it was when the prelude ended. -/
theorem W4_main_v31 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- main_v31 at boundary 7 is what it was when the prelude ended. -/
theorem W7_main_v31 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by host_untouched hostOps1
    _ = W3 m ρ c (Proc.devRef .tc main_v31) := W4_main_v31 m ρ c

/-- main_v31 at boundary 10 is what it was when the prelude ended. -/
theorem W10_main_v31 (c : Dev nD) : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := by host_untouched hostOps3
    _ = W3 m ρ c (Proc.devRef .tc main_v31) := W7_main_v31 m ρ c

/-- main_v31 at boundary 13 is what it was when the prelude ended. -/
theorem W13_main_v31 (c : Dev nD) : W13 m ρ c (Proc.devRef .tc main_v31) = W3 m ρ c (Proc.devRef .tc main_v31) :=
  calc W13 m ρ c (Proc.devRef .tc main_v31)
    _ = W12 m ρ c (Proc.devRef .tc main_v31) := W13_of_ne m ρ c main_v31 (by decide)
    _ = W11 m ρ c (Proc.devRef .tc main_v31) := W12_of_ne m ρ c main_v31 (by decide)
    _ = W10 m ρ c (Proc.devRef .tc main_v31) := by host_untouched hostOps5
    _ = W3 m ρ c (Proc.devRef .tc main_v31) := W10_main_v31 m ρ c

/-- main_v31 at boundary 16 is what it was when the prelude ended. -/
theorem W16_main_v31 (c : Dev nD) : W16 m ρ c (Proc.devRef .tc main_v31) = W3 m ρ c (Proc.devRef .tc main_v31) :=
  calc W16 m ρ c (Proc.devRef .tc main_v31)
    _ = W15 m ρ c (Proc.devRef .tc main_v31) := W16_of_ne m ρ c main_v31 (by decide)
    _ = W14 m ρ c (Proc.devRef .tc main_v31) := W15_of_ne m ρ c main_v31 (by decide)
    _ = W13 m ρ c (Proc.devRef .tc main_v31) := by host_untouched hostOps7
    _ = W3 m ρ c (Proc.devRef .tc main_v31) := W13_main_v31 m ρ c

/-- main_v31 at boundary 19 is what it was when the prelude ended. -/
theorem W19_main_v31 (c : Dev nD) : W19 m ρ c (Proc.devRef .tc main_v31) = W3 m ρ c (Proc.devRef .tc main_v31) :=
  calc W19 m ρ c (Proc.devRef .tc main_v31)
    _ = W18 m ρ c (Proc.devRef .tc main_v31) := W19_of_ne m ρ c main_v31 (by decide)
    _ = W17 m ρ c (Proc.devRef .tc main_v31) := W18_of_ne m ρ c main_v31 (by decide)
    _ = W16 m ρ c (Proc.devRef .tc main_v31) := by host_untouched hostOps9
    _ = W3 m ρ c (Proc.devRef .tc main_v31) := W16_main_v31 m ρ c

end Cert.KV

end
-- ==== Proof.PreludeWhere.lean ====
/-
  The prelude's outlined selection.

  The per-node factor of the normalization is the inverse square root of the degree where the node receives a
  message and zero elsewhere. The kernel's program computes that selection in an outlined function whose three
  operations carry their values through typed references; read back, they are the reference's selection of the
  same two arrays and the same zero. (Seeing that the typed references' transports are identities means evaluating
  the buffer table at their numbers, which is why this one comparison is given a large budget.)
-/
import proofs.«178092_j65704409694294_1_alg».proof.Proof.Gen.KernelIdeal.Frame
import proofs.«178092_j65704409694294_1_alg».proof.Proof.RefRead
import proofs.«178092_j65704409694294_1_alg».proof.Proof.Spec

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (W : Valuation τ sig (Elt Ideal))

set_option maxRecDepth 1000000 in
set_option maxHeartbeats 16000000 in
/-- The outlined selection: the per-node factor where the node receives a message, zero elsewhere. -/
theorem mid_v16 (x1 : (⟨Cert.ReferenceIdeal.S2x800000, .i32⟩ : BufTy).Contents (Elt Ideal))
    (h12 : W (Proc.devRef .tc main_v12) = val_main_v12 (F := Ideal) x1)
    (h15 : W (Proc.devRef .tc main_v15) = val_main_v15 (F := Ideal) x1)
    (hc3 : W (Proc.devRef .tc main_cst_3) = val_main_cst_3 (F := Ideal)) :
    StableHlo.after (hostOps0_1 (F := Ideal)) W (Proc.devRef .tc main_v16) = val_main_v16 (F := Ideal) x1 := by
  after_results_simp
  rw [h12, h15, hc3]
  rfl

end Cert.KV

end
-- ==== Proof.Prelude.lean ====
/-
  The prelude: message sources, targets and normalization weights.

  Before the first launch the kernel's host operations build, from the edge list alone, the source index and the
  target index of every message (the edges followed by one self loop per node) and the weight of every message
  (the product of the inverse square roots of its end points' degrees, a degree being the number of messages that
  arrive, and zero where no message arrives). The reference builds them by the same operations in the same order,
  so each array is the reference's stage of the edge list.

  The first stretch is read in two parts: the seven operations that build the two index arrays, and the rest, which
  reads of them only the target index. Everything after the first part is stated from ANY buffer contents that hold
  the index arrays, so that no statement has to look inside the concatenations that built them.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.PreludeWhere

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- Running a list of host operations in two parts. -/
theorem after_append {Val : EltTy → Type} (a b : List (HloOp τ sig Val)) (V : Valuation τ sig Val) :
    StableHlo.after (a ++ b) V = StableHlo.after b (StableHlo.after a V) := by
  induction a generalizing V with
  | nil => rfl
  | cons op ops ih => exact ih _

variable (W : Valuation τ sig (Elt Ideal))

/-- The first stretch is its first seven operations, then the rest. -/
theorem split0 : StableHlo.after (hostOps0 (F := Ideal)) W
    = StableHlo.after ((hostOps0 (F := Ideal)).drop 7) (StableHlo.after ((hostOps0 (F := Ideal)).take 7) W) := by
  rw [← after_append, List.take_append_drop]

/-- The source index of every message: the edge list's first row, then the node numbers. -/
theorem head_v3 : StableHlo.after ((hostOps0 (F := Ideal)).take 7) W (Proc.devRef .tc main_v3)
    = val_main_v3 (F := Ideal) (W (Proc.devRef .tc main_arg1)) := by
  simp only [hostOps0, List.take_succ_cons, List.take_zero]
  after_results_simp
  rfl

/-- The target index of every message: the edge list's second row, then the node numbers. -/
theorem head_v6 : StableHlo.after ((hostOps0 (F := Ideal)).take 7) W (Proc.devRef .tc main_v6)
    = val_main_v6 (F := Ideal) (W (Proc.devRef .tc main_arg1)) := by
  simp only [hostOps0, List.take_succ_cons, List.take_zero]
  after_results_simp
  rfl

/-- The rest of the first stretch writes neither index array. -/
theorem tail_keep_v3 : StableHlo.after ((hostOps0 (F := Ideal)).drop 7) W (Proc.devRef .tc main_v3) = W (Proc.devRef .tc main_v3) := by
  simp only [hostOps0, List.drop_succ_cons, List.drop_zero]
  after_results_simp
theorem tail_keep_v6 : StableHlo.after ((hostOps0 (F := Ideal)).drop 7) W (Proc.devRef .tc main_v6) = W (Proc.devRef .tc main_v6) := by
  simp only [hostOps0, List.drop_succ_cons, List.drop_zero]
  after_results_simp

/-- Which nodes receive a message at all: the degree against zero. -/
theorem tail_v12 (x1 : (⟨Cert.ReferenceIdeal.S2x800000, .i32⟩ : BufTy).Contents (Elt Ideal)) (h6 : W (Proc.devRef .tc main_v6) = val_main_v6 (F := Ideal) x1) :
    StableHlo.after ((hostOps0 (F := Ideal)).drop 7) W (Proc.devRef .tc main_v12) = val_main_v12 (F := Ideal) x1 := by
  simp only [hostOps0, List.drop_succ_cons, List.drop_zero]
  after_results_simp
  rw [h6]
  rfl

/-- The inverse square root of the degree, the degree taken at least one. -/
theorem tail_v15 (x1 : (⟨Cert.ReferenceIdeal.S2x800000, .i32⟩ : BufTy).Contents (Elt Ideal)) (h6 : W (Proc.devRef .tc main_v6) = val_main_v6 (F := Ideal) x1) :
    StableHlo.after ((hostOps0 (F := Ideal)).drop 7) W (Proc.devRef .tc main_v15) = val_main_v15 (F := Ideal) x1 := by
  simp only [hostOps0, List.drop_succ_cons, List.drop_zero]
  after_results_simp
  rw [h6]
  rfl

/-- The zero the weight falls back to. -/
theorem tail_cst3 : StableHlo.after ((hostOps0 (F := Ideal)).drop 7) W (Proc.devRef .tc main_cst_3) = val_main_cst_3 (F := Ideal) := by
  simp only [hostOps0, List.drop_succ_cons, List.drop_zero]
  after_results_simp
  rfl

/-- The outlined selection writes neither index array. -/
theorem mid_keep_v3 : StableHlo.after (hostOps0_1 (F := Ideal)) W (Proc.devRef .tc main_v3) = W (Proc.devRef .tc main_v3) := by
  after_results_simp
theorem mid_keep_v6 : StableHlo.after (hostOps0_1 (F := Ideal)) W (Proc.devRef .tc main_v6) = W (Proc.devRef .tc main_v6) := by
  after_results_simp

/-- Nor does the last stretch of the prelude. -/
theorem last_keep_v3 : StableHlo.after (hostOps0_2 (F := Ideal)) W (Proc.devRef .tc main_v3) = W (Proc.devRef .tc main_v3) := by
  after_results_simp
theorem last_keep_v6 : StableHlo.after (hostOps0_2 (F := Ideal)) W (Proc.devRef .tc main_v6) = W (Proc.devRef .tc main_v6) := by
  after_results_simp

/-- The weight of every message, from any contents holding the two index arrays and the per-node factor: the
    product of the factor at the message's source and the factor at its target. -/
theorem last_v31 (x1 : (⟨Cert.ReferenceIdeal.S2x800000, .i32⟩ : BufTy).Contents (Elt Ideal))
    (h16 : W (Proc.devRef .tc main_v16) = val_main_v16 (F := Ideal) x1)
    (h3 : W (Proc.devRef .tc main_v3) = val_main_v3 (F := Ideal) x1)
    (h6 : W (Proc.devRef .tc main_v6) = val_main_v6 (F := Ideal) x1) :
    StableHlo.after (hostOps0_2 (F := Ideal)) W (Proc.devRef .tc main_v31) = val_main_v31 (F := Ideal) x1 := by
  after_results_simp
  rw [h16, h3, h6]
  rfl

/-- The source and target index after the whole prelude, from the contents after its first seven operations. -/
theorem keep3 : StableHlo.after (hostOps0_2 (F := Ideal)) (StableHlo.after (hostOps0_1 (F := Ideal)) (StableHlo.after (hostOps0 (F := Ideal)) W)) (Proc.devRef .tc main_v3) = StableHlo.after ((hostOps0 (F := Ideal)).take 7) W (Proc.devRef .tc main_v3) := by
  rw [split0]
  exact (last_keep_v3 _).trans ((mid_keep_v3 _).trans (tail_keep_v3 _))
theorem keep6 : StableHlo.after (hostOps0_2 (F := Ideal)) (StableHlo.after (hostOps0_1 (F := Ideal)) (StableHlo.after (hostOps0 (F := Ideal)) W)) (Proc.devRef .tc main_v6) = StableHlo.after ((hostOps0 (F := Ideal)).take 7) W (Proc.devRef .tc main_v6) := by
  rw [split0]
  exact (last_keep_v6 _).trans ((mid_keep_v6 _).trans (tail_keep_v6 _))

/-- After the prelude: the source index. -/
theorem pre_v3_of : StableHlo.after (hostOps0_2 (F := Ideal)) (StableHlo.after (hostOps0_1 (F := Ideal)) (StableHlo.after (hostOps0 (F := Ideal)) W)) (Proc.devRef .tc main_v3) = val_main_v3 (F := Ideal) (W (Proc.devRef .tc main_arg1)) :=
  (keep3 W).trans (head_v3 W)

/-- After the prelude: the target index. -/
theorem pre_v6_of : StableHlo.after (hostOps0_2 (F := Ideal)) (StableHlo.after (hostOps0_1 (F := Ideal)) (StableHlo.after (hostOps0 (F := Ideal)) W)) (Proc.devRef .tc main_v6) = val_main_v6 (F := Ideal) (W (Proc.devRef .tc main_arg1)) :=
  (keep6 W).trans (head_v6 W)

/-- After the prelude: the weight of every message. -/
theorem pre_v31_of : StableHlo.after (hostOps0_2 (F := Ideal)) (StableHlo.after (hostOps0_1 (F := Ideal)) (StableHlo.after (hostOps0 (F := Ideal)) W)) (Proc.devRef .tc main_v31) = val_main_v31 (F := Ideal) (W (Proc.devRef .tc main_arg1)) := by
  rw [split0]
  refine last_v31 _ _ (mid_v16 _ _ (tail_v12 _ _ (head_v6 W)) (tail_v15 _ _ (head_v6 W)) (tail_cst3 _)) ?_ ?_
  · exact (mid_keep_v3 _).trans ((tail_keep_v3 _).trans (head_v3 W))
  · exact (mid_keep_v6 _).trans ((tail_keep_v6 _).trans (head_v6 W))

end Cert.KV

end
-- ==== Proof.MM8.lean ====
/-
  Launch 8: the linear map of a layer, tiled over ten blocks of 5000 rows.

  At grid point t the body loads rows 5000·t … 5000·t + 4999 of the features (all 64 columns) and the whole
  64 × 128 weight matrix, multiplies them into a zero accumulator (the narrowing of both operands to bf16 is the
  identity over the extended reals) and stores the 5000 × 128 product, which is written back as block t of the
  result. So entry (r, q) of the result is the sum over k of features (r, k) · weights (k, q), whatever the launch
  found in the result array: the ten blocks cover it.
-/
import proofs.«178092_j65704409694294_1_alg».proof.Proof.Gen.KernelIdeal.Frame
import proofs.«178092_j65704409694294_1_alg».proof.Proof.Spec
import proofs.«178092_j65704409694294_1_alg».proof.Proof.LibPlainDot

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at row p, column q of its block: the sum over k of the loaded rows' (p, k) times the loaded
    weights' (k, q). -/
theorem pay8_at (x0 : Vec Ideal S5000x64 .f32) (x1 : Vec Ideal S64x128 .f32) (p : Fin 5000) (q : Fin 128) :
    k8_pay1 (F := Ideal) x0 x1 (ix2 p q) = ∑ k : Fin 64, x0 (ix2 p k) * x1 (ix2 k q) := by
  unfold k8_pay1
  try simp only [shapeCast_self]
  exact Cert.PlainDot.matmul_zero_apply dot_S5000x64_S64x128_S5000x128_1_0_0_1_n_n rfl rfl rfl rfl rfl rfl none _ _ p q

/-- The printed index maps, decided over the ten grid points: the features' and the result's block row is the
    point, every other block index is zero. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the product of the arrays the launch found. -/
theorem flushed8 (c : Dev nD) (t : Fin cfg8.N) :
    (dat8 V c).flushed 2 t
      = ((cfg8.win 2).blk t).view.read (Elt Ideal) (rowsTimesCols (M := 50000) (K := 64) (N := 128) (V c main_v95) (V c main_arg10)) := by
  show (cfg8.win 2).cut (grid8.coords t) ((dat8 V c).after 2 t) = _
  rw [after8_2]
  unfold out8_2
  rw [View.canon_unit_zero hz2]
  simp only [View.ld_unit_zero (S := S5000x64) hz2, View.ld_unit_zero (S := S64x128) hz2]
  obtain ⟨e0, e1, e2, e3, e4, e5⟩ := idx_facts8 t
  funext j
  obtain ⟨p, q, rfl⟩ : ∃ (p : Fin 5000) (q : Fin 128), j = ix2 p q := ⟨j 0, j 1, eq_ix2 j⟩
  refine (pay8_at (iblk8 V c 0 t) (iblk8 V c 1 t) p q).trans ?_
  rw [View.read_apply]
  unfold rowsTimesCols
  refine Finset.sum_congr rfl fun k _ => ?_
  have h0 : iblk8 V c 0 t (ix2 p k) = V c main_v95 (ix2 (⟨win8_2.index t (0 : Fin 2) * 5000 + 1 * p.val, by have := p.isLt; have := t.isLt; have hN : cfg8.N = 10 := N_8; omega⟩ : Fin 50000) k) := by
    show V c main_v95 (((cfg8.win 0).blk t).view.emb (ix2 p k)) = _
    refine congrArg (V c main_v95) (funext fun a => Fin.ext ?_)
    match a with
    | ⟨0, _⟩ => show win8_0.index t (0 : Fin 2) * 5000 + 1 * p.val = win8_2.index t (0 : Fin 2) * 5000 + 1 * p.val; omega
    | ⟨1, _⟩ => show win8_0.index t (1 : Fin 2) * 64 + 1 * k.val = k.val; omega
  have h1 : iblk8 V c 1 t (ix2 k q) = V c main_arg10 (ix2 k (⟨win8_2.index t (1 : Fin 2) * 128 + 1 * q.val, by have := q.isLt; omega⟩ : Fin 128)) := by
    show V c main_arg10 (((cfg8.win 1).blk t).view.emb (ix2 k q)) = _
    refine congrArg (V c main_arg10) (funext fun a => Fin.ext ?_)
    match a with
    | ⟨0, _⟩ => show win8_1.index t (0 : Fin 2) * 64 + 1 * k.val = k.val; omega
    | ⟨1, _⟩ => show win8_1.index t (1 : Fin 2) * 128 + 1 * q.val = win8_2.index t (1 : Fin 2) * 128 + 1 * q.val; omega
  rw [h0, h1]
  rfl

/-- An index of the result array is in point t's block iff each coordinate is in the block's range on its axis. -/
theorem mem_blk8 (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole (Pipeline.arrRef spec8 2)).slice (win8_2.rect t)).set ↔ _
  rw [View.set_slice_whole, Rect.mem_set_unit]
  exact Iff.rfl

/-- Every index of the result array is in the block of the point its row falls in. -/
theorem cover8 (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  have hN := N_8
  refine ⟨⟨(i 0).val / 5000, by show _ < grid8.N; omega⟩, flush8_2 _, ?_⟩
  obtain ⟨e0, e1, e2, e3, e4, e5⟩ := idx_facts8 ⟨(i 0).val / 5000, by show _ < grid8.N; omega⟩
  rw [mem_blk8]
  intro a
  match a with
  | ⟨0, _⟩ => show win8_2.index _ (0 : Fin 2) * 5000 ≤ (i 0).val ∧ (i 0).val < win8_2.index _ (0 : Fin 2) * 5000 + 5000; rw [e4]; show (i 0).val / 5000 * 5000 ≤ _ ∧ _ < (i 0).val / 5000 * 5000 + 5000; omega
  | ⟨1, _⟩ => show win8_2.index _ (1 : Fin 2) * 128 ≤ (i 1).val ∧ (i 1).val < win8_2.index _ (1 : Fin 2) * 128 + 128; rw [e5]; omega

/-- THE RESULT ARRAY after the launch: the product of the two arrays the launch found. -/
theorem final8 (c : Dev nD) :
    (dat8 V c).arrAt 2 cfg8.N = rowsTimesCols (M := 50000) (K := 64) (N := 128) (V c main_v95) (V c main_arg10) :=
  (dat8 V c).arrAt_eq_of_cover 2 _ (fun t _ => flushed8 V c t) (cover8)

end Cert.KV

end
-- ==== Proof.BA9.lean ====
/-
  Launch 9: the bias step of a layer, tiled over ten blocks of 5000 rows.

  At grid point t the body loads rows 5000·t … 5000·t + 4999 of the aggregated messages and the one bias row,
  repeats the bias row down the block, adds, takes the maximum with zero and stores the block, which is written back
  as block t of the result. So entry (r, q) of the result is agg (r, q) + bias (0, q), or zero if that is larger,
  whatever the launch found in the result array: the ten blocks cover it.
-/
import proofs.«178092_j65704409694294_1_alg».proof.Proof.Gen.KernelIdeal.Frame
import proofs.«178092_j65704409694294_1_alg».proof.Proof.Spec

set_option maxRecDepth 16384

noncomputable section

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at row p, column q of its block: the loaded entry plus the bias row's entry q, against zero
    (the same-shape casts are the identity; the bias row is repeated down the rows). -/
theorem pay9_at (x0 : Vec Ideal S5000x128 .f32) (x1 : Vec Ideal S1x128 .f32) (p : Fin 5000) (q : Fin 128) :
    k9_pay1 (F := Ideal) x0 x1 (ix2 p q) = FloatOps.maximumf (F := Ideal) (φ := .f32) (FloatOps.addf (F := Ideal) (φ := .f32) (x0 (ix2 p q)) (x1 (ix2 (⟨0, Nat.one_pos⟩ : Fin 1) q))) (FloatOps.ofBits (F := Ideal) .f32 0x00000000#32) := by
  unfold k9_pay1
  simp only [shapeCast_self]
  have hb : broadcastTo S5000x128 x1 broadcasts_S1x128_S5000x128 (ix2 p q) = x1 (ix2 (⟨0, Nat.one_pos⟩ : Fin 1) q) :=
    broadcastTo_apply x1 broadcasts_S1x128_S5000x128 (ix2 p q) (ix2 (⟨0, Nat.one_pos⟩ : Fin 1) q) (fun a => match a with
      | ⟨0, _⟩ => by show (0 : Nat) = if (1 : Nat) = 1 then 0 else _; rw [if_pos rfl]
      | ⟨1, _⟩ => by show q.val = if (128 : Nat) = 1 then 0 else q.val; rw [if_neg (by decide)])
  show FloatOps.maximumf (F := Ideal) (φ := .f32) (FloatOps.addf (F := Ideal) (φ := .f32) (x0 (ix2 p q)) (broadcastTo S5000x128 x1 broadcasts_S1x128_S5000x128 (ix2 p q))) _ = _
  rw [hb]
  rfl

/-- The printed index maps, decided over the ten grid points: the aggregate's and the result's block row is the
    point, every other block index is zero. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of the bias step of the arrays the launch found. -/
theorem flushed9 (c : Dev nD) (t : Fin cfg9.N) :
    (dat9 V c).flushed 2 t
      = ((cfg9.win 2).blk t).view.read (Elt Ideal) (addRowMax (M := 50000) (N := 128) (V c main_v109) (V c main_v110)) := by
  show (cfg9.win 2).cut (grid9.coords t) ((dat9 V c).after 2 t) = _
  rw [after9_2]
  unfold out9_2
  rw [View.canon_unit_zero hz2]
  simp only [View.ld_unit_zero (S := S5000x128) hz2, View.ld_unit_zero (S := S1x128) hz2]
  obtain ⟨e0, e1, e2, e3, e4, e5⟩ := idx_facts9 t
  funext j
  obtain ⟨p, q, rfl⟩ : ∃ (p : Fin 5000) (q : Fin 128), j = ix2 p q := ⟨j 0, j 1, eq_ix2 j⟩
  refine (pay9_at (iblk9 V c 0 t) (iblk9 V c 1 t) p q).trans ?_
  have h0 : iblk9 V c 0 t (ix2 p q) = V c main_v109 (((cfg9.win 2).blk t).view.emb (ix2 p q)) := by
    show V c main_v109 (((cfg9.win 0).blk t).view.emb (ix2 p q)) = _
    refine congrArg (V c main_v109) (funext fun a => Fin.ext ?_)
    match a with
    | ⟨0, _⟩ => show win9_0.index t (0 : Fin 2) * 5000 + 1 * p.val = win9_2.index t (0 : Fin 2) * 5000 + 1 * p.val; omega
    | ⟨1, _⟩ => show win9_0.index t (1 : Fin 2) * 128 + 1 * q.val = win9_2.index t (1 : Fin 2) * 128 + 1 * q.val; omega
  have h1 : iblk9 V c 1 t (ix2 (⟨0, Nat.one_pos⟩ : Fin 1) q)
      = V c main_v110 (ix2 (⟨0, Nat.one_pos⟩ : Fin 1) (⟨win9_2.index t (1 : Fin 2) * 128 + 1 * q.val, by have := q.isLt; omega⟩ : Fin 128)) := by
    show V c main_v110 (((cfg9.win 1).blk t).view.emb (ix2 (⟨0, Nat.one_pos⟩ : Fin 1) q)) = _
    refine congrArg (V c main_v110) (funext fun a => Fin.ext ?_)
    match a with
    | ⟨0, _⟩ => show win9_1.index t (0 : Fin 2) * 1 + 1 * 0 = 0; omega
    | ⟨1, _⟩ => show win9_1.index t (1 : Fin 2) * 128 + 1 * q.val = win9_2.index t (1 : Fin 2) * 128 + 1 * q.val; omega
  rw [h0, h1]
  rfl

/-- An index of the result array is in point t's block iff each coordinate is in the block's range on its axis. -/
theorem mem_blk9 (t : Fin cfg9.N) (i : S50000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole (Pipeline.arrRef spec9 2)).slice (win9_2.rect t)).set ↔ _
  rw [View.set_slice_whole, Rect.mem_set_unit]
  exact Iff.rfl

/-- Every index of the result array is in the block of the point its row falls in. -/
theorem cover9 (i : S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  have hN := N_9
  refine ⟨⟨(i 0).val / 5000, by show _ < grid9.N; omega⟩, flush9_2 _, ?_⟩
  obtain ⟨e0, e1, e2, e3, e4, e5⟩ := idx_facts9 ⟨(i 0).val / 5000, by show _ < grid9.N; omega⟩
  rw [mem_blk9]
  intro a
  match a with
  | ⟨0, _⟩ => show win9_2.index _ (0 : Fin 2) * 5000 ≤ (i 0).val ∧ (i 0).val < win9_2.index _ (0 : Fin 2) * 5000 + 5000; rw [e4]; show (i 0).val / 5000 * 5000 ≤ _ ∧ _ < (i 0).val / 5000 * 5000 + 5000; omega
  | ⟨1, _⟩ => show win9_2.index _ (1 : Fin 2) * 128 ≤ (i 1).val ∧ (i 1).val < win9_2.index _ (1 : Fin 2) * 128 + 128; rw [e5]; omega

/-- THE RESULT ARRAY after the launch: the bias step of the two arrays the launch found. -/
theorem final9 (c : Dev nD) :
    (dat9 V c).arrAt 2 cfg9.N = addRowMax (M := 50000) (N := 128) (V c main_v109) (V c main_v110) :=
  (dat9 V c).arrAt_eq_of_cover 2 _ (fun t _ => flushed9 V c t) (cover9)

end Cert.KV

end
-- ==== Proof.MM6.lean ====
/-
  Launch 6: the linear map of a layer, tiled over ten blocks of 5000 rows.

  At grid point t the body loads rows 5000·t … 5000·t + 4999 of the features (all 32 columns) and the whole
  32 × 64 weight matrix, multiplies them into a zero accumulator (the narrowing of both operands to bf16 is the
  identity over the extended reals) and stores the 5000 × 64 product, which is written back as block t of the
  result. So entry (r, q) of the result is the sum over k of features (r, k) · weights (k, q), whatever the launch
  found in the result array: the ten blocks cover it.
-/
import proofs.«178092_j65704409694294_1_alg».proof.Proof.Gen.KernelIdeal.Frame
import proofs.«178092_j65704409694294_1_alg».proof.Proof.Spec
import proofs.«178092_j65704409694294_1_alg».proof.Proof.LibPlainDot

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at row p, column q of its block: the sum over k of the loaded rows' (p, k) times the loaded
    weights' (k, q). -/
theorem pay6_at (x0 : Vec Ideal S5000x32 .f32) (x1 : Vec Ideal S32x64 .f32) (p : Fin 5000) (q : Fin 64) :
    k6_pay1 (F := Ideal) x0 x1 (ix2 p q) = ∑ k : Fin 32, x0 (ix2 p k) * x1 (ix2 k q) := by
  unfold k6_pay1
  try simp only [shapeCast_self]
  exact Cert.PlainDot.matmul_zero_apply dot_S5000x32_S32x64_S5000x64_1_0_0_1_n_n rfl rfl rfl rfl rfl rfl none _ _ p q

/-- The printed index maps, decided over the ten grid points: the features' and the result's block row is the
    point, every other block index is zero. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the arrays the launch found. -/
theorem flushed6 (c : Dev nD) (t : Fin cfg6.N) :
    (dat6 V c).flushed 2 t
      = ((cfg6.win 2).blk t).view.read (Elt Ideal) (rowsTimesCols (M := 50000) (K := 32) (N := 64) (V c main_v79) (V c main_arg8)) := by
  show (cfg6.win 2).cut (grid6.coords t) ((dat6 V c).after 2 t) = _
  rw [after6_2]
  unfold out6_2
  rw [View.canon_unit_zero hz2]
  simp only [View.ld_unit_zero (S := S5000x32) hz2, View.ld_unit_zero (S := S32x64) hz2]
  obtain ⟨e0, e1, e2, e3, e4, e5⟩ := idx_facts6 t
  funext j
  obtain ⟨p, q, rfl⟩ : ∃ (p : Fin 5000) (q : Fin 64), j = ix2 p q := ⟨j 0, j 1, eq_ix2 j⟩
  refine (pay6_at (iblk6 V c 0 t) (iblk6 V c 1 t) p q).trans ?_
  rw [View.read_apply]
  unfold rowsTimesCols
  refine Finset.sum_congr rfl fun k _ => ?_
  have h0 : iblk6 V c 0 t (ix2 p k) = V c main_v79 (ix2 (⟨win6_2.index t (0 : Fin 2) * 5000 + 1 * p.val, by have := p.isLt; have := t.isLt; have hN : cfg6.N = 10 := N_6; omega⟩ : Fin 50000) k) := by
    show V c main_v79 (((cfg6.win 0).blk t).view.emb (ix2 p k)) = _
    refine congrArg (V c main_v79) (funext fun a => Fin.ext ?_)
    match a with
    | ⟨0, _⟩ => show win6_0.index t (0 : Fin 2) * 5000 + 1 * p.val = win6_2.index t (0 : Fin 2) * 5000 + 1 * p.val; omega
    | ⟨1, _⟩ => show win6_0.index t (1 : Fin 2) * 32 + 1 * k.val = k.val; omega
  have h1 : iblk6 V c 1 t (ix2 k q) = V c main_arg8 (ix2 k (⟨win6_2.index t (1 : Fin 2) * 64 + 1 * q.val, by have := q.isLt; omega⟩ : Fin 64)) := by
    show V c main_arg8 (((cfg6.win 1).blk t).view.emb (ix2 k q)) = _
    refine congrArg (V c main_arg8) (funext fun a => Fin.ext ?_)
    match a with
    | ⟨0, _⟩ => show win6_1.index t (0 : Fin 2) * 32 + 1 * k.val = k.val; omega
    | ⟨1, _⟩ => show win6_1.index t (1 : Fin 2) * 64 + 1 * q.val = win6_2.index t (1 : Fin 2) * 64 + 1 * q.val; omega
  rw [h0, h1]
  rfl

/-- An index of the result array is in point t's block iff each coordinate is in the block's range on its axis. -/
theorem mem_blk6 (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole (Pipeline.arrRef spec6 2)).slice (win6_2.rect t)).set ↔ _
  rw [View.set_slice_whole, Rect.mem_set_unit]
  exact Iff.rfl

/-- Every index of the result array is in the block of the point its row falls in. -/
theorem cover6 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN := N_6
  refine ⟨⟨(i 0).val / 5000, by show _ < grid6.N; omega⟩, flush6_2 _, ?_⟩
  obtain ⟨e0, e1, e2, e3, e4, e5⟩ := idx_facts6 ⟨(i 0).val / 5000, by show _ < grid6.N; omega⟩
  rw [mem_blk6]
  intro a
  match a with
  | ⟨0, _⟩ => show win6_2.index _ (0 : Fin 2) * 5000 ≤ (i 0).val ∧ (i 0).val < win6_2.index _ (0 : Fin 2) * 5000 + 5000; rw [e4]; show (i 0).val / 5000 * 5000 ≤ _ ∧ _ < (i 0).val / 5000 * 5000 + 5000; omega
  | ⟨1, _⟩ => show win6_2.index _ (1 : Fin 2) * 64 ≤ (i 1).val ∧ (i 1).val < win6_2.index _ (1 : Fin 2) * 64 + 64; rw [e5]; omega

/-- THE RESULT ARRAY after the launch: the product of the two arrays the launch found. -/
theorem final6 (c : Dev nD) :
    (dat6 V c).arrAt 2 cfg6.N = rowsTimesCols (M := 50000) (K := 32) (N := 64) (V c main_v79) (V c main_arg8) :=
  (dat6 V c).arrAt_eq_of_cover 2 _ (fun t _ => flushed6 V c t) (cover6)

end Cert.KV

end
-- ==== Proof.BA7.lean ====
/-
  Launch 7: the bias step of a layer, tiled over ten blocks of 5000 rows.

  At grid point t the body loads rows 5000·t … 5000·t + 4999 of the aggregated messages and the one bias row,
  repeats the bias row down the block, adds, takes the maximum with zero and stores the block, which is written back
  as block t of the result. So entry (r, q) of the result is agg (r, q) + bias (0, q), or zero if that is larger,
  whatever the launch found in the result array: the ten blocks cover it.
-/
import proofs.«178092_j65704409694294_1_alg».proof.Proof.Gen.KernelIdeal.Frame
import proofs.«178092_j65704409694294_1_alg».proof.Proof.Spec

set_option maxRecDepth 16384

noncomputable section

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at row p, column q of its block: the loaded entry plus the bias row's entry q, against zero
    (the same-shape casts are the identity; the bias row is repeated down the rows). -/
theorem pay7_at (x0 : Vec Ideal S5000x64 .f32) (x1 : Vec Ideal S1x64 .f32) (p : Fin 5000) (q : Fin 64) :
    k7_pay1 (F := Ideal) x0 x1 (ix2 p q) = FloatOps.maximumf (F := Ideal) (φ := .f32) (FloatOps.addf (F := Ideal) (φ := .f32) (x0 (ix2 p q)) (x1 (ix2 (⟨0, Nat.one_pos⟩ : Fin 1) q))) (FloatOps.ofBits (F := Ideal) .f32 0x00000000#32) := by
  unfold k7_pay1
  simp only [shapeCast_self]
  have hb : broadcastTo S5000x64 x1 broadcasts_S1x64_S5000x64 (ix2 p q) = x1 (ix2 (⟨0, Nat.one_pos⟩ : Fin 1) q) :=
    broadcastTo_apply x1 broadcasts_S1x64_S5000x64 (ix2 p q) (ix2 (⟨0, Nat.one_pos⟩ : Fin 1) q) (fun a => match a with
      | ⟨0, _⟩ => by show (0 : Nat) = if (1 : Nat) = 1 then 0 else _; rw [if_pos rfl]
      | ⟨1, _⟩ => by show q.val = if (64 : Nat) = 1 then 0 else q.val; rw [if_neg (by decide)])
  show FloatOps.maximumf (F := Ideal) (φ := .f32) (FloatOps.addf (F := Ideal) (φ := .f32) (x0 (ix2 p q)) (broadcastTo S5000x64 x1 broadcasts_S1x64_S5000x64 (ix2 p q))) _ = _
  rw [hb]
  rfl

/-- The printed index maps, decided over the ten grid points: the aggregate's and the result's block row is the
    point, every other block index is zero. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the bias step of the arrays the launch found. -/
theorem flushed7 (c : Dev nD) (t : Fin cfg7.N) :
    (dat7 V c).flushed 2 t
      = ((cfg7.win 2).blk t).view.read (Elt Ideal) (addRowMax (M := 50000) (N := 64) (V c main_v93) (V c main_v94)) := by
  show (cfg7.win 2).cut (grid7.coords t) ((dat7 V c).after 2 t) = _
  rw [after7_2]
  unfold out7_2
  rw [View.canon_unit_zero hz2]
  simp only [View.ld_unit_zero (S := S5000x64) hz2, View.ld_unit_zero (S := S1x64) hz2]
  obtain ⟨e0, e1, e2, e3, e4, e5⟩ := idx_facts7 t
  funext j
  obtain ⟨p, q, rfl⟩ : ∃ (p : Fin 5000) (q : Fin 64), j = ix2 p q := ⟨j 0, j 1, eq_ix2 j⟩
  refine (pay7_at (iblk7 V c 0 t) (iblk7 V c 1 t) p q).trans ?_
  have h0 : iblk7 V c 0 t (ix2 p q) = V c main_v93 (((cfg7.win 2).blk t).view.emb (ix2 p q)) := by
    show V c main_v93 (((cfg7.win 0).blk t).view.emb (ix2 p q)) = _
    refine congrArg (V c main_v93) (funext fun a => Fin.ext ?_)
    match a with
    | ⟨0, _⟩ => show win7_0.index t (0 : Fin 2) * 5000 + 1 * p.val = win7_2.index t (0 : Fin 2) * 5000 + 1 * p.val; omega
    | ⟨1, _⟩ => show win7_0.index t (1 : Fin 2) * 64 + 1 * q.val = win7_2.index t (1 : Fin 2) * 64 + 1 * q.val; omega
  have h1 : iblk7 V c 1 t (ix2 (⟨0, Nat.one_pos⟩ : Fin 1) q)
      = V c main_v94 (ix2 (⟨0, Nat.one_pos⟩ : Fin 1) (⟨win7_2.index t (1 : Fin 2) * 64 + 1 * q.val, by have := q.isLt; omega⟩ : Fin 64)) := by
    show V c main_v94 (((cfg7.win 1).blk t).view.emb (ix2 (⟨0, Nat.one_pos⟩ : Fin 1) q)) = _
    refine congrArg (V c main_v94) (funext fun a => Fin.ext ?_)
    match a with
    | ⟨0, _⟩ => show win7_1.index t (0 : Fin 2) * 1 + 1 * 0 = 0; omega
    | ⟨1, _⟩ => show win7_1.index t (1 : Fin 2) * 64 + 1 * q.val = win7_2.index t (1 : Fin 2) * 64 + 1 * q.val; omega
  rw [h0, h1]
  rfl

/-- An index of the result array is in point t's block iff each coordinate is in the block's range on its axis. -/
theorem mem_blk7 (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole (Pipeline.arrRef spec7 2)).slice (win7_2.rect t)).set ↔ _
  rw [View.set_slice_whole, Rect.mem_set_unit]
  exact Iff.rfl

/-- Every index of the result array is in the block of the point its row falls in. -/
theorem cover7 (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  have hN := N_7
  refine ⟨⟨(i 0).val / 5000, by show _ < grid7.N; omega⟩, flush7_2 _, ?_⟩
  obtain ⟨e0, e1, e2, e3, e4, e5⟩ := idx_facts7 ⟨(i 0).val / 5000, by show _ < grid7.N; omega⟩
  rw [mem_blk7]
  intro a
  match a with
  | ⟨0, _⟩ => show win7_2.index _ (0 : Fin 2) * 5000 ≤ (i 0).val ∧ (i 0).val < win7_2.index _ (0 : Fin 2) * 5000 + 5000; rw [e4]; show (i 0).val / 5000 * 5000 ≤ _ ∧ _ < (i 0).val / 5000 * 5000 + 5000; omega
  | ⟨1, _⟩ => show win7_2.index _ (1 : Fin 2) * 64 ≤ (i 1).val ∧ (i 1).val < win7_2.index _ (1 : Fin 2) * 64 + 64; rw [e5]; omega

/-- THE RESULT ARRAY after the launch: the bias step of the two arrays the launch found. -/
theorem final7 (c : Dev nD) :
    (dat7 V c).arrAt 2 cfg7.N = addRowMax (M := 50000) (N := 64) (V c main_v93) (V c main_v94) :=
  (dat7 V c).arrAt_eq_of_cover 2 _ (fun t _ => flushed7 V c t) (cover7)

end Cert.KV

end
-- ==== Proof.MM4.lean ====
/-
  Launch 4: the linear map of a layer, tiled over ten blocks of 5000 rows.

  At grid point t the body loads rows 5000·t … 5000·t + 4999 of the features (all 64 columns) and the whole
  64 × 32 weight matrix, multiplies them into a zero accumulator (the narrowing of both operands to bf16 is the
  identity over the extended reals) and stores the 5000 × 32 product, which is written back as block t of the
  result. So entry (r, q) of the result is the sum over k of features (r, k) · weights (k, q), whatever the launch
  found in the result array: the ten blocks cover it.
-/
import proofs.«178092_j65704409694294_1_alg».proof.Proof.Gen.KernelIdeal.Frame
import proofs.«178092_j65704409694294_1_alg».proof.Proof.Spec
import proofs.«178092_j65704409694294_1_alg».proof.Proof.LibPlainDot

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at row p, column q of its block: the sum over k of the loaded rows' (p, k) times the loaded
    weights' (k, q). -/
theorem pay4_at (x0 : Vec Ideal S5000x64 .f32) (x1 : Vec Ideal S64x32 .f32) (p : Fin 5000) (q : Fin 32) :
    k4_pay1 (F := Ideal) x0 x1 (ix2 p q) = ∑ k : Fin 64, x0 (ix2 p k) * x1 (ix2 k q) := by
  unfold k4_pay1
  try simp only [shapeCast_self]
  exact Cert.PlainDot.matmul_zero_apply dot_S5000x64_S64x32_S5000x32_1_0_0_1_n_n rfl rfl rfl rfl rfl rfl none _ _ p q

/-- The printed index maps, decided over the ten grid points: the features' and the result's block row is the
    point, every other block index is zero. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the arrays the launch found. -/
theorem flushed4 (c : Dev nD) (t : Fin cfg4.N) :
    (dat4 V c).flushed 2 t
      = ((cfg4.win 2).blk t).view.read (Elt Ideal) (rowsTimesCols (M := 50000) (K := 64) (N := 32) (V c main_v63) (V c main_arg6)) := by
  show (cfg4.win 2).cut (grid4.coords t) ((dat4 V c).after 2 t) = _
  rw [after4_2]
  unfold out4_2
  rw [View.canon_unit_zero hz2]
  simp only [View.ld_unit_zero (S := S5000x64) hz2, View.ld_unit_zero (S := S64x32) hz2]
  obtain ⟨e0, e1, e2, e3, e4, e5⟩ := idx_facts4 t
  funext j
  obtain ⟨p, q, rfl⟩ : ∃ (p : Fin 5000) (q : Fin 32), j = ix2 p q := ⟨j 0, j 1, eq_ix2 j⟩
  refine (pay4_at (iblk4 V c 0 t) (iblk4 V c 1 t) p q).trans ?_
  rw [View.read_apply]
  unfold rowsTimesCols
  refine Finset.sum_congr rfl fun k _ => ?_
  have h0 : iblk4 V c 0 t (ix2 p k) = V c main_v63 (ix2 (⟨win4_2.index t (0 : Fin 2) * 5000 + 1 * p.val, by have := p.isLt; have := t.isLt; have hN : cfg4.N = 10 := N_4; omega⟩ : Fin 50000) k) := by
    show V c main_v63 (((cfg4.win 0).blk t).view.emb (ix2 p k)) = _
    refine congrArg (V c main_v63) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 64 + 1 * k.val = k.val; omega
  have h1 : iblk4 V c 1 t (ix2 k q) = V c main_arg6 (ix2 k (⟨win4_2.index t (1 : Fin 2) * 32 + 1 * q.val, by have := q.isLt; omega⟩ : Fin 32)) := by
    show V c main_arg6 (((cfg4.win 1).blk t).view.emb (ix2 k q)) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 32 + 1 * q.val = win4_2.index t (1 : Fin 2) * 32 + 1 * q.val; omega
  rw [h0, h1]
  rfl

/-- An index of the result array is in point t's block iff each coordinate is in the block's range on its axis. -/
theorem mem_blk4 (t : Fin cfg4.N) (i : S50000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole (Pipeline.arrRef spec4 2)).slice (win4_2.rect t)).set ↔ _
  rw [View.set_slice_whole, Rect.mem_set_unit]
  exact Iff.rfl

/-- Every index of the result array is in the block of the point its row falls in. -/
theorem cover4 (i : S50000x32.Idx) :
    ∃ t : Fin cfg4.N, (cfg4.win 2).flush t = true ∧ i ∈ ((cfg4.win 2).blk t).view.set := by
  have hi0 : (i 0).val < 50000 := (i 0).isLt
  have hi1 : (i 1).val < 32 := (i 1).isLt
  have hN := N_4
  refine ⟨⟨(i 0).val / 5000, by show _ < grid4.N; omega⟩, flush4_2 _, ?_⟩
  obtain ⟨e0, e1, e2, e3, e4, e5⟩ := idx_facts4 ⟨(i 0).val / 5000, by show _ < grid4.N; omega⟩
  rw [mem_blk4]
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ _ ∧ _ < (i 0).val / 5000 * 5000 + 5000; omega
  | ⟨1, _⟩ => show win4_2.index _ (1 : Fin 2) * 32 ≤ (i 1).val ∧ (i 1).val < win4_2.index _ (1 : Fin 2) * 32 + 32; rw [e5]; omega

/-- THE RESULT ARRAY after the launch: the product of the two arrays the launch found. -/
theorem final4 (c : Dev nD) :
    (dat4 V c).arrAt 2 cfg4.N = rowsTimesCols (M := 50000) (K := 64) (N := 32) (V c main_v63) (V c main_arg6) :=
  (dat4 V c).arrAt_eq_of_cover 2 _ (fun t _ => flushed4 V c t) (cover4)

end Cert.KV

end
-- ==== Proof.BA5.lean ====
/-
  Launch 5: the bias step of a layer, tiled over ten blocks of 5000 rows.

  At grid point t the body loads rows 5000·t … 5000·t + 4999 of the aggregated messages and the one bias row,
  repeats the bias row down the block, adds and stores the block, which is written back
  as block t of the result. So entry (r, q) of the result is agg (r, q) + bias (0, q),
  whatever the launch found in the result array: the ten blocks cover it.
-/
import proofs.«178092_j65704409694294_1_alg».proof.Proof.Gen.KernelIdeal.Frame
import proofs.«178092_j65704409694294_1_alg».proof.Proof.Spec

set_option maxRecDepth 16384

noncomputable section

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at row p, column q of its block: the loaded entry plus the bias row's entry q
    (the same-shape casts are the identity; the bias row is repeated down the rows). -/
theorem pay5_at (x0 : Vec Ideal S5000x32 .f32) (x1 : Vec Ideal S1x32 .f32) (p : Fin 5000) (q : Fin 32) :
    k5_pay1 (F := Ideal) x0 x1 (ix2 p q) = FloatOps.addf (F := Ideal) (φ := .f32) (x0 (ix2 p q)) (x1 (ix2 (⟨0, Nat.one_pos⟩ : Fin 1) q)) := by
  unfold k5_pay1
  simp only [shapeCast_self]
  have hb : broadcastTo S5000x32 x1 broadcasts_S1x32_S5000x32 (ix2 p q) = x1 (ix2 (⟨0, Nat.one_pos⟩ : Fin 1) q) :=
    broadcastTo_apply x1 broadcasts_S1x32_S5000x32 (ix2 p q) (ix2 (⟨0, Nat.one_pos⟩ : Fin 1) q) (fun a => match a with
      | ⟨0, _⟩ => by show (0 : Nat) = if (1 : Nat) = 1 then 0 else _; rw [if_pos rfl]
      | ⟨1, _⟩ => by show q.val = if (32 : Nat) = 1 then 0 else q.val; rw [if_neg (by decide)])
  show FloatOps.addf (F := Ideal) (φ := .f32) (x0 (ix2 p q)) (broadcastTo S5000x32 x1 broadcasts_S1x32_S5000x32 (ix2 p q)) = _
  rw [hb]

/-- The printed index maps, decided over the ten grid points: the aggregate's and the result's block row is the
    point, every other block index is zero. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the bias step of the arrays the launch found. -/
theorem flushed5 (c : Dev nD) (t : Fin cfg5.N) :
    (dat5 V c).flushed 2 t
      = ((cfg5.win 2).blk t).view.read (Elt Ideal) (addRow (M := 50000) (N := 32) (V c main_v77) (V c main_v78)) := by
  show (cfg5.win 2).cut (grid5.coords t) ((dat5 V c).after 2 t) = _
  rw [after5_2]
  unfold out5_2
  rw [View.canon_unit_zero hz2]
  simp only [View.ld_unit_zero (S := S5000x32) hz2, View.ld_unit_zero (S := S1x32) hz2]
  obtain ⟨e0, e1, e2, e3, e4, e5⟩ := idx_facts5 t
  funext j
  obtain ⟨p, q, rfl⟩ : ∃ (p : Fin 5000) (q : Fin 32), j = ix2 p q := ⟨j 0, j 1, eq_ix2 j⟩
  refine (pay5_at (iblk5 V c 0 t) (iblk5 V c 1 t) p q).trans ?_
  have h0 : iblk5 V c 0 t (ix2 p q) = V c main_v77 (((cfg5.win 2).blk t).view.emb (ix2 p q)) := by
    show V c main_v77 (((cfg5.win 0).blk t).view.emb (ix2 p q)) = _
    refine congrArg (V c main_v77) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 32 + 1 * q.val = win5_2.index t (1 : Fin 2) * 32 + 1 * q.val; omega
  have h1 : iblk5 V c 1 t (ix2 (⟨0, Nat.one_pos⟩ : Fin 1) q)
      = V c main_v78 (ix2 (⟨0, Nat.one_pos⟩ : Fin 1) (⟨win5_2.index t (1 : Fin 2) * 32 + 1 * q.val, by have := q.isLt; omega⟩ : Fin 32)) := by
    show V c main_v78 (((cfg5.win 1).blk t).view.emb (ix2 (⟨0, Nat.one_pos⟩ : Fin 1) q)) = _
    refine congrArg (V c main_v78) (funext fun a => Fin.ext ?_)
    match a with
    | ⟨0, _⟩ => show win5_1.index t (0 : Fin 2) * 1 + 1 * 0 = 0; omega
    | ⟨1, _⟩ => show win5_1.index t (1 : Fin 2) * 32 + 1 * q.val = win5_2.index t (1 : Fin 2) * 32 + 1 * q.val; omega
  rw [h0, h1]
  rfl

/-- An index of the result array is in point t's block iff each coordinate is in the block's range on its axis. -/
theorem mem_blk5 (t : Fin cfg5.N) (i : S50000x32.Idx) :
    i ∈ ((cfg5.win 2).blk t).view.set ↔ ∀ a : Fin 2, win5_2.index t a * S5000x32.size a ≤ (i a).val ∧ (i a).val < win5_2.index t a * S5000x32.size a + S5000x32.size a := by
  show i ∈ ((View.whole (Pipeline.arrRef spec5 2)).slice (win5_2.rect t)).set ↔ _
  rw [View.set_slice_whole, Rect.mem_set_unit]
  exact Iff.rfl

/-- Every index of the result array is in the block of the point its row falls in. -/
theorem cover5 (i : S50000x32.Idx) :
    ∃ t : Fin cfg5.N, (cfg5.win 2).flush t = true ∧ i ∈ ((cfg5.win 2).blk t).view.set := by
  have hi0 : (i 0).val < 50000 := (i 0).isLt
  have hi1 : (i 1).val < 32 := (i 1).isLt
  have hN := N_5
  refine ⟨⟨(i 0).val / 5000, by show _ < grid5.N; omega⟩, flush5_2 _, ?_⟩
  obtain ⟨e0, e1, e2, e3, e4, e5⟩ := idx_facts5 ⟨(i 0).val / 5000, by show _ < grid5.N; omega⟩
  rw [mem_blk5]
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ _ ∧ _ < (i 0).val / 5000 * 5000 + 5000; omega
  | ⟨1, _⟩ => show win5_2.index _ (1 : Fin 2) * 32 ≤ (i 1).val ∧ (i 1).val < win5_2.index _ (1 : Fin 2) * 32 + 32; rw [e5]; omega

/-- THE RESULT ARRAY after the launch: the bias step of the two arrays the launch found. -/
theorem final5 (c : Dev nD) :
    (dat5 V c).arrAt 2 cfg5.N = addRow (M := 50000) (N := 32) (V c main_v77) (V c main_v78) :=
  (dat5 V c).arrAt_eq_of_cover 2 _ (fun t _ => flushed5 V c t) (cover5)

end Cert.KV

end
-- ==== Proof.MM2.lean ====
/-
  Launch 2: the linear map of a layer, tiled over ten blocks of 5000 rows.

  At grid point t the body loads rows 5000·t … 5000·t + 4999 of the features (all 128 columns) and the whole
  128 × 64 weight matrix, multiplies them into a zero accumulator (the narrowing of both operands to bf16 is the
  identity over the extended reals) and stores the 5000 × 64 product, which is written back as block t of the
  result. So entry (r, q) of the result is the sum over k of features (r, k) · weights (k, q), whatever the launch
  found in the result array: the ten blocks cover it.
-/
import proofs.«178092_j65704409694294_1_alg».proof.Proof.Gen.KernelIdeal.Frame
import proofs.«178092_j65704409694294_1_alg».proof.Proof.Spec
import proofs.«178092_j65704409694294_1_alg».proof.Proof.LibPlainDot

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at row p, column q of its block: the sum over k of the loaded rows' (p, k) times the loaded
    weights' (k, q). -/
theorem pay2_at (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  try simp only [shapeCast_self]
  exact Cert.PlainDot.matmul_zero_apply dot_S5000x128_S128x64_S5000x64_1_0_0_1_n_n rfl rfl rfl rfl rfl rfl none _ _ p q

/-- The printed index maps, decided over the ten grid points: the features' and the result's block row is the
    point, every other block index is zero. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the launch found. -/
theorem flushed2 (c : Dev nD) (t : Fin cfg2.N) :
    (dat2 V c).flushed 2 t
      = ((cfg2.win 2).blk t).view.read (Elt Ideal) (rowsTimesCols (M := 50000) (K := 128) (N := 64) (V c main_v47) (V c main_arg4)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x64) hz2]
  obtain ⟨e0, e1, e2, e3, e4, e5⟩ := idx_facts2 t
  funext j
  obtain ⟨p, q, rfl⟩ : ∃ (p : Fin 5000) (q : Fin 64), j = ix2 p q := ⟨j 0, j 1, eq_ix2 j⟩
  refine (pay2_at (iblk2 V c 0 t) (iblk2 V c 1 t) p q).trans ?_
  rw [View.read_apply]
  unfold rowsTimesCols
  refine Finset.sum_congr rfl fun k _ => ?_
  have h0 : iblk2 V c 0 t (ix2 p k) = V c main_v47 (ix2 (⟨win2_2.index t (0 : Fin 2) * 5000 + 1 * p.val, by have := p.isLt; have := t.isLt; have hN : cfg2.N = 10 := N_2; omega⟩ : Fin 50000) k) := by
    show V c main_v47 (((cfg2.win 0).blk t).view.emb (ix2 p k)) = _
    refine congrArg (V c main_v47) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : iblk2 V c 1 t (ix2 k q) = V c main_arg4 (ix2 k (⟨win2_2.index t (1 : Fin 2) * 64 + 1 * q.val, by have := q.isLt; omega⟩ : Fin 64)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [h0, h1]
  rfl

/-- An index of the result array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole (Pipeline.arrRef spec2 2)).slice (win2_2.rect t)).set ↔ _
  rw [View.set_slice_whole, Rect.mem_set_unit]
  exact Iff.rfl

/-- Every index of the result array is in the block of the point its row falls in. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN := N_2
  refine ⟨⟨(i 0).val / 5000, by show _ < grid2.N; omega⟩, flush2_2 _, ?_⟩
  obtain ⟨e0, e1, e2, e3, e4, e5⟩ := idx_facts2 ⟨(i 0).val / 5000, by show _ < grid2.N; omega⟩
  rw [mem_blk2]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 64 ≤ (i 1).val ∧ (i 1).val < win2_2.index _ (1 : Fin 2) * 64 + 64; rw [e5]; omega

/-- THE RESULT ARRAY after the launch: the product of the two arrays the launch found. -/
theorem final2 (c : Dev nD) :
    (dat2 V c).arrAt 2 cfg2.N = rowsTimesCols (M := 50000) (K := 128) (N := 64) (V c main_v47) (V c main_arg4) :=
  (dat2 V c).arrAt_eq_of_cover 2 _ (fun t _ => flushed2 V c t) (cover2)

end Cert.KV

end
-- ==== Proof.BA3.lean ====
/-
  Launch 3: the bias step of a layer, tiled over ten blocks of 5000 rows.

  At grid point t the body loads rows 5000·t … 5000·t + 4999 of the aggregated messages and the one bias row,
  repeats the bias row down the block, adds, takes the maximum with zero and stores the block, which is written back
  as block t of the result. So entry (r, q) of the result is agg (r, q) + bias (0, q), or zero if that is larger,
  whatever the launch found in the result array: the ten blocks cover it.
-/
import proofs.«178092_j65704409694294_1_alg».proof.Proof.Gen.KernelIdeal.Frame
import proofs.«178092_j65704409694294_1_alg».proof.Proof.Spec

set_option maxRecDepth 16384

noncomputable section

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at row p, column q of its block: the loaded entry plus the bias row's entry q, against zero
    (the same-shape casts are the identity; the bias row is repeated down the rows). -/
theorem pay3_at (x0 : Vec Ideal S5000x64 .f32) (x1 : Vec Ideal S1x64 .f32) (p : Fin 5000) (q : Fin 64) :
    k3_pay1 (F := Ideal) x0 x1 (ix2 p q) = FloatOps.maximumf (F := Ideal) (φ := .f32) (FloatOps.addf (F := Ideal) (φ := .f32) (x0 (ix2 p q)) (x1 (ix2 (⟨0, Nat.one_pos⟩ : Fin 1) q))) (FloatOps.ofBits (F := Ideal) .f32 0x00000000#32) := by
  unfold k3_pay1
  simp only [shapeCast_self]
  have hb : broadcastTo S5000x64 x1 broadcasts_S1x64_S5000x64 (ix2 p q) = x1 (ix2 (⟨0, Nat.one_pos⟩ : Fin 1) q) :=
    broadcastTo_apply x1 broadcasts_S1x64_S5000x64 (ix2 p q) (ix2 (⟨0, Nat.one_pos⟩ : Fin 1) q) (fun a => match a with
      | ⟨0, _⟩ => by show (0 : Nat) = if (1 : Nat) = 1 then 0 else _; rw [if_pos rfl]
      | ⟨1, _⟩ => by show q.val = if (64 : Nat) = 1 then 0 else q.val; rw [if_neg (by decide)])
  show FloatOps.maximumf (F := Ideal) (φ := .f32) (FloatOps.addf (F := Ideal) (φ := .f32) (x0 (ix2 p q)) (broadcastTo S5000x64 x1 broadcasts_S1x64_S5000x64 (ix2 p q))) _ = _
  rw [hb]
  rfl

/-- The printed index maps, decided over the ten grid points: the aggregate's and the result's block row is the
    point, every other block index is zero. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias step of the arrays the launch found. -/
theorem flushed3 (c : Dev nD) (t : Fin cfg3.N) :
    (dat3 V c).flushed 2 t
      = ((cfg3.win 2).blk t).view.read (Elt Ideal) (addRowMax (M := 50000) (N := 64) (V c main_v61) (V c main_v62)) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S1x64) hz2]
  obtain ⟨e0, e1, e2, e3, e4, e5⟩ := idx_facts3 t
  funext j
  obtain ⟨p, q, rfl⟩ : ∃ (p : Fin 5000) (q : Fin 64), j = ix2 p q := ⟨j 0, j 1, eq_ix2 j⟩
  refine (pay3_at (iblk3 V c 0 t) (iblk3 V c 1 t) p q).trans ?_
  have h0 : iblk3 V c 0 t (ix2 p q) = V c main_v61 (((cfg3.win 2).blk t).view.emb (ix2 p q)) := by
    show V c main_v61 (((cfg3.win 0).blk t).view.emb (ix2 p q)) = _
    refine congrArg (V c main_v61) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : iblk3 V c 1 t (ix2 (⟨0, Nat.one_pos⟩ : Fin 1) q)
      = V c main_v62 (ix2 (⟨0, Nat.one_pos⟩ : Fin 1) (⟨win3_2.index t (1 : Fin 2) * 64 + 1 * q.val, by have := q.isLt; omega⟩ : Fin 64)) := by
    show V c main_v62 (((cfg3.win 1).blk t).view.emb (ix2 (⟨0, Nat.one_pos⟩ : Fin 1) q)) = _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]
  rfl

/-- An index of the result array is in point t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole (Pipeline.arrRef spec3 2)).slice (win3_2.rect t)).set ↔ _
  rw [View.set_slice_whole, Rect.mem_set_unit]
  exact Iff.rfl

/-- Every index of the result array is in the block of the point its row falls in. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN := N_3
  refine ⟨⟨(i 0).val / 5000, by show _ < grid3.N; omega⟩, flush3_2 _, ?_⟩
  obtain ⟨e0, e1, e2, e3, e4, e5⟩ := idx_facts3 ⟨(i 0).val / 5000, by show _ < grid3.N; omega⟩
  rw [mem_blk3]
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 64 ≤ (i 1).val ∧ (i 1).val < win3_2.index _ (1 : Fin 2) * 64 + 64; rw [e5]; omega

/-- THE RESULT ARRAY after the launch: the bias step of the two arrays the launch found. -/
theorem final3 (c : Dev nD) :
    (dat3 V c).arrAt 2 cfg3.N = addRowMax (M := 50000) (N := 64) (V c main_v61) (V c main_v62) :=
  (dat3 V c).arrAt_eq_of_cover 2 _ (fun t _ => flushed3 V c t) (cover3)

end Cert.KV

end
-- ==== Proof.MM0.lean ====
/-
  Launch 0: the linear map of a layer, tiled over ten blocks of 5000 rows.

  At grid point t the body loads rows 5000·t … 5000·t + 4999 of the features (all 256 columns) and the whole
  256 × 128 weight matrix, multiplies them into a zero accumulator (the narrowing of both operands to bf16 is the
  identity over the extended reals) and stores the 5000 × 128 product, which is written back as block t of the
  result. So entry (r, q) of the result is the sum over k of features (r, k) · weights (k, q), whatever the launch
  found in the result array: the ten blocks cover it.
-/
import proofs.«178092_j65704409694294_1_alg».proof.Proof.Gen.KernelIdeal.Frame
import proofs.«178092_j65704409694294_1_alg».proof.Proof.Spec
import proofs.«178092_j65704409694294_1_alg».proof.Proof.LibPlainDot

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at row p, column q of its block: the sum over k of the loaded rows' (p, k) times the loaded
    weights' (k, q). -/
theorem pay0_at (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  try simp only [shapeCast_self]
  exact Cert.PlainDot.matmul_zero_apply dot_S5000x256_S256x128_S5000x128_1_0_0_1_n_n rfl rfl rfl rfl rfl rfl none _ _ p q

/-- The printed index maps, decided over the ten grid points: the features' and the result's block row is the
    point, every other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the launch found. -/
theorem flushed0 (c : Dev nD) (t : Fin cfg0.N) :
    (dat0 V c).flushed 2 t
      = ((cfg0.win 2).blk t).view.read (Elt Ideal) (rowsTimesCols (M := 50000) (K := 256) (N := 128) (V c main_arg0) (V c main_arg2)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x128) hz2]
  obtain ⟨e0, e1, e2, e3, e4, e5⟩ := idx_facts0 t
  funext j
  obtain ⟨p, q, rfl⟩ : ∃ (p : Fin 5000) (q : Fin 128), j = ix2 p q := ⟨j 0, j 1, eq_ix2 j⟩
  refine (pay0_at (iblk0 V c 0 t) (iblk0 V c 1 t) p q).trans ?_
  rw [View.read_apply]
  unfold rowsTimesCols
  refine Finset.sum_congr rfl fun k _ => ?_
  have h0 : iblk0 V c 0 t (ix2 p k) = V c main_arg0 (ix2 (⟨win0_2.index t (0 : Fin 2) * 5000 + 1 * p.val, by have := p.isLt; have := t.isLt; have hN : cfg0.N = 10 := N_0; omega⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : iblk0 V c 1 t (ix2 k q) = V c main_arg2 (ix2 k (⟨win0_2.index t (1 : Fin 2) * 128 + 1 * q.val, by have := q.isLt; omega⟩ : Fin 128)) := by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]
  rfl

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every index of the result array is in the block of the point its row falls in. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN := N_0
  refine ⟨⟨(i 0).val / 5000, by show _ < grid0.N; omega⟩, flush0_2 _, ?_⟩
  obtain ⟨e0, e1, e2, e3, e4, e5⟩ := idx_facts0 ⟨(i 0).val / 5000, by show _ < grid0.N; omega⟩
  rw [mem_blk0]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- THE RESULT ARRAY after the launch: the product of the two arrays the launch found. -/
theorem final0 (c : Dev nD) :
    (dat0 V c).arrAt 2 cfg0.N = rowsTimesCols (M := 50000) (K := 256) (N := 128) (V c main_arg0) (V c main_arg2) :=
  (dat0 V c).arrAt_eq_of_cover 2 _ (fun t _ => flushed0 V c t) (cover0)

end Cert.KV

end
-- ==== Proof.BA1.lean ====
/-
  Launch 1: the bias step of a layer, tiled over ten blocks of 5000 rows.

  At grid point t the body loads rows 5000·t … 5000·t + 4999 of the aggregated messages and the one bias row,
  repeats the bias row down the block, adds, takes the maximum with zero and stores the block, which is written back
  as block t of the result. So entry (r, q) of the result is agg (r, q) + bias (0, q), or zero if that is larger,
  whatever the launch found in the result array: the ten blocks cover it.
-/
import proofs.«178092_j65704409694294_1_alg».proof.Proof.Gen.KernelIdeal.Frame
import proofs.«178092_j65704409694294_1_alg».proof.Proof.Spec

set_option maxRecDepth 16384

noncomputable section

namespace Cert.KV

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at row p, column q of its block: the loaded entry plus the bias row's entry q, against zero
    (the same-shape casts are the identity; the bias row is repeated down the rows). -/
theorem pay1_at (x0 : Vec Ideal S5000x128 .f32) (x1 : Vec Ideal S1x128 .f32) (p : Fin 5000) (q : Fin 128) :
    k1_pay1 (F := Ideal) x0 x1 (ix2 p q) = FloatOps.maximumf (F := Ideal) (φ := .f32) (FloatOps.addf (F := Ideal) (φ := .f32) (x0 (ix2 p q)) (x1 (ix2 (⟨0, Nat.one_pos⟩ : Fin 1) q))) (FloatOps.ofBits (F := Ideal) .f32 0x00000000#32) := by
  unfold k1_pay1
  simp only [shapeCast_self]
  have hb : broadcastTo S5000x128 x1 broadcasts_S1x128_S5000x128 (ix2 p q) = x1 (ix2 (⟨0, Nat.one_pos⟩ : Fin 1) q) :=
    broadcastTo_apply x1 broadcasts_S1x128_S5000x128 (ix2 p q) (ix2 (⟨0, Nat.one_pos⟩ : Fin 1) q) (fun a => match a with
      | ⟨0, _⟩ => by show (0 : Nat) = if (1 : Nat) = 1 then 0 else _; rw [if_pos rfl]
      | ⟨1, _⟩ => by show q.val = if (128 : Nat) = 1 then 0 else q.val; rw [if_neg (by decide)])
  show FloatOps.maximumf (F := Ideal) (φ := .f32) (FloatOps.addf (F := Ideal) (φ := .f32) (x0 (ix2 p q)) (broadcastTo S5000x128 x1 broadcasts_S1x128_S5000x128 (ix2 p q))) _ = _
  rw [hb]
  rfl

/-- The printed index maps, decided over the ten grid points: the aggregate's and the result's block row is the
    point, every other block index is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias step of the arrays the launch found. -/
theorem flushed1 (c : Dev nD) (t : Fin cfg1.N) :
    (dat1 V c).flushed 2 t
      = ((cfg1.win 2).blk t).view.read (Elt Ideal) (addRowMax (M := 50000) (N := 128) (V c main_v45) (V c main_v46)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S1x128) hz2]
  obtain ⟨e0, e1, e2, e3, e4, e5⟩ := idx_facts1 t
  funext j
  obtain ⟨p, q, rfl⟩ : ∃ (p : Fin 5000) (q : Fin 128), j = ix2 p q := ⟨j 0, j 1, eq_ix2 j⟩
  refine (pay1_at (iblk1 V c 0 t) (iblk1 V c 1 t) p q).trans ?_
  have h0 : iblk1 V c 0 t (ix2 p q) = V c main_v45 (((cfg1.win 2).blk t).view.emb (ix2 p q)) := by
    show V c main_v45 (((cfg1.win 0).blk t).view.emb (ix2 p q)) = _
    refine congrArg (V c main_v45) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : iblk1 V c 1 t (ix2 (⟨0, Nat.one_pos⟩ : Fin 1) q)
      = V c main_v46 (ix2 (⟨0, Nat.one_pos⟩ : Fin 1) (⟨win1_2.index t (1 : Fin 2) * 128 + 1 * q.val, by have := q.isLt; omega⟩ : Fin 128)) := by
    show V c main_v46 (((cfg1.win 1).blk t).view.emb (ix2 (⟨0, Nat.one_pos⟩ : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Every index of the result array is in the block of the point its row falls in. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN := N_1
  refine ⟨⟨(i 0).val / 5000, by show _ < grid1.N; omega⟩, flush1_2 _, ?_⟩
  obtain ⟨e0, e1, e2, e3, e4, e5⟩ := idx_facts1 ⟨(i 0).val / 5000, by show _ < grid1.N; omega⟩
  rw [mem_blk1]
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 128 ≤ (i 1).val ∧ (i 1).val < win1_2.index _ (1 : Fin 2) * 128 + 128; rw [e5]; omega

/-- THE RESULT ARRAY after the launch: the bias step of the two arrays the launch found. -/
theorem final1 (c : Dev nD) :
    (dat1 V c).arrAt 2 cfg1.N = addRowMax (M := 50000) (N := 128) (V c main_v45) (V c main_v46) :=
  (dat1 V c).arrAt_eq_of_cover 2 _ (fun t _ => flushed1 V c t) (cover1)

end Cert.KV

end
-- ==== Proof.Layer0.lean ====
/-
  Layer 1 of the network: the kernel's three steps against the reference's stages.

  The layer's linear map is a launch; gathering the transformed features along the message sources, scaling by the
  message weights and summing per target node are host operations, the same ones in the same order as the
  reference's; adding the bias and taking the maximum with zero is a second launch. Entry by entry the first launch's product is the
  reference's dot_general (both are the sum over k of features (r, k) · weights (k, q)), and the second launch's
  result is the reference's sum with the broadcast bias against zero (the kernel's bias row is the bias vector reshaped).
  So after each of the three steps the kernel's buffer holds the reference's stage of the same arguments.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.MM0
import proofs.«178092_j65704409694294_1_alg».proof.Proof.BA1
import proofs.«178092_j65704409694294_1_alg».proof.Proof.KeepArgs
import proofs.«178092_j65704409694294_1_alg».proof.Proof.KeepIdx
import proofs.«178092_j65704409694294_1_alg».proof.Proof.Prelude

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- The reference's dot_general of this layer is rows times columns. -/
theorem dot0_eq (x0 : (⟨Cert.ReferenceIdeal.S50000x256, .f32⟩ : BufTy).Contents (Elt Ideal)) (x2 : (⟨Cert.ReferenceIdeal.S256x128, .f32⟩ : BufTy).Contents (Elt Ideal)) :
    rowsTimesCols (M := 50000) (K := 256) (N := 128) x0 x2 = val_main_v32 (F := Ideal) x0 x2 := by
  funext i
  rw [val_main_v32_apply]
  unfold rowsTimesCols
  refine Finset.sum_congr rfl fun k _ => ?_
  have el : lidx_main_v32 i k = ix2 (⟨(i 0).val, idx2_lt0 i⟩ : Fin 50000) k :=
    funext fun a => Fin.ext (by match a with | ⟨0, _⟩ => rfl | ⟨1, _⟩ => rfl)
  have er : ridx_main_v32 i k = ix2 k (⟨(i 1).val, idx2_lt1 i⟩ : Fin 128) :=
    funext fun a => Fin.ext (by match a with | ⟨0, _⟩ => rfl | ⟨1, _⟩ => rfl)
  rw [el, er]

/-- The layer's host operations, from any contents holding the product, the message sources and targets and the
    message weights: the aggregate is the reference's. -/
theorem host0_agg (W : Valuation τ sig (Elt Ideal)) (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal))
    (hmm : W (Proc.devRef .tc main_v32) = val_main_v32 (F := Ideal) x0 x2)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    StableHlo.after (hostOps1 (F := Ideal)) W (Proc.devRef .tc main_v45) = val_main_v45 (F := Ideal) x0 x1 x2 := by
  after_results_simp
  rw [hmm, h3, h6, h31]
  rfl

/-- The same operations leave the bias vector reshaped to one row. -/
theorem host0_bias (W : Valuation τ sig (Elt Ideal)) :
    StableHlo.after (hostOps1 (F := Ideal)) W (Proc.devRef .tc main_v46)
      = shapeCast S1x128 (W (Proc.devRef .tc main_arg3)) shapeCasts_S128_S1x128 := by
  after_results_simp
  rfl

/-- The bias step of an aggregate and the reshaped bias is the reference's sum with the broadcast bias, against zero. -/
theorem out0_eq (a : (⟨Cert.ReferenceIdeal.S50000x128, .f32⟩ : BufTy).Contents (Elt Ideal)) (b : (⟨Cert.ReferenceIdeal.S128, .f32⟩ : BufTy).Contents (Elt Ideal))
    (hc : Cert.ReferenceIdeal.S128.ShapeCasts Cert.KernelIdeal.S1x128) :
    addRowMax (M := 50000) (N := 128) a (shapeCast Cert.KernelIdeal.S1x128 b hc)
      = maximumf (addf a (val_main_v47 (F := Ideal) b)) (val_main_call1_v0 (F := Ideal)) := by
  funext i
  show FloatOps.maximumf (F := Ideal) (φ := .f32) (FloatOps.addf (F := Ideal) (φ := .f32) (a i) (shapeCast Cert.KernelIdeal.S1x128 b hc (ix2 (⟨0, Nat.one_pos⟩ : Fin 1) (⟨(i 1).val, idx2_lt1 i⟩ : Fin 128)))) (FloatOps.ofBits (F := Ideal) .f32 0x00000000#32)
     = FloatOps.maximumf (F := Ideal) (φ := .f32) (FloatOps.addf (F := Ideal) (φ := .f32) (a i) (val_main_v47 (F := Ideal) b i)) (val_main_call1_v0 (F := Ideal) i)
  rw [val_main_v47_apply, val_main_v46_apply, val_main_call1_v0_apply, val_main_call1_cst_apply]
  rw [shapeCast_apply b hc (ix2 (⟨0, Nat.one_pos⟩ : Fin 1) (⟨(i 1).val, idx2_lt1 i⟩ : Fin 128)) (idx_main_v46 (idx_main_v47 i))
    (by rw [Shape.rowMajor_val_one, Shape.rowMajor_val_two]; show (i 1).val = 0 * 128 + (i 1).val; omega)]

variable (m : (ℓ : Loc nD τ sig) → Buf (Elt Ideal) ℓ) (ρ : Dev nD → PrngReg) (c : Dev nD)

/-- After the first launch the product buffer holds the reference's dot_general of the arguments. -/
theorem mm0_val : W4 m ρ c (Proc.devRef .tc main_v32) = val_main_v32 (F := Ideal) (m ((c : Thread nD τ).loc main_arg0)) (m ((c : Thread nD τ).loc main_arg2)) := by
  refine (W4_arr m ρ c 2).trans ((final0 (V3 m ρ) c).trans ?_)
  show rowsTimesCols (M := 50000) (K := 256) (N := 128) (W3 m ρ c (Proc.devRef .tc main_arg0)) (W3 m ρ c (Proc.devRef .tc main_arg2)) = _
  rw [W3_arg0 m ρ c, W3_arg2 m ρ c]
  exact dot0_eq _ _

/-- After the host operations the aggregate buffer holds the reference's aggregate. -/
theorem agg0_val : W5 m ρ c (Proc.devRef .tc main_v45) = val_main_v45 (F := Ideal) (m ((c : Thread nD τ).loc main_arg0)) (m ((c : Thread nD τ).loc main_arg1)) (m ((c : Thread nD τ).loc main_arg2)) :=
  host0_agg (W4 m ρ c) _ _ _ (mm0_val m ρ c)
    ((W4_main_v3 m ρ c).trans (pre_v3_of (W0 m ρ c)))
    ((W4_main_v6 m ρ c).trans (pre_v6_of (W0 m ρ c)))
    ((W4_main_v31 m ρ c).trans (pre_v31_of (W0 m ρ c)))

/-- … and the bias row buffer the bias argument reshaped. -/
theorem rs0_val : W5 m ρ c (Proc.devRef .tc main_v46)
    = shapeCast S1x128 (m ((c : Thread nD τ).loc main_arg3)) shapeCasts_S128_S1x128 :=
  (host0_bias (W4 m ρ c)).trans (congrArg (fun v => shapeCast S1x128 v shapeCasts_S128_S1x128) (W4_arg3 m ρ c))

/-- After the second launch the layer's output buffer holds the reference's layer output. -/
theorem out0_val : W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((final1 (V5 m ρ) c).trans ?_)
  show addRowMax (M := 50000) (N := 128) (W5 m ρ c (Proc.devRef .tc main_v45)) (W5 m ρ c (Proc.devRef .tc main_v46)) = _
  rw [agg0_val m ρ c, rs0_val m ρ c]
  exact (out0_eq _ _ _).trans rfl

end Cert.KV

end
-- ==== Proof.Layer1.lean ====
/-
  Layer 2 of the network: the kernel's three steps against the reference's stages.

  The layer's linear map is a launch; gathering the transformed features along the message sources, scaling by the
  message weights and summing per target node are host operations, the same ones in the same order as the
  reference's; adding the bias and taking the maximum with zero is a second launch. Entry by entry the first launch's product is the
  reference's dot_general (both are the sum over k of features (r, k) · weights (k, q)), and the second launch's
  result is the reference's sum with the broadcast bias against zero (the kernel's bias row is the bias vector reshaped).
  So after each of the three steps the kernel's buffer holds the reference's stage of the same arguments.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.MM2
import proofs.«178092_j65704409694294_1_alg».proof.Proof.BA3
import proofs.«178092_j65704409694294_1_alg».proof.Proof.KeepArgs
import proofs.«178092_j65704409694294_1_alg».proof.Proof.KeepIdx
import proofs.«178092_j65704409694294_1_alg».proof.Proof.Prelude
import proofs.«178092_j65704409694294_1_alg».proof.Proof.Layer0

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- The reference's dot_general of this layer is rows times columns. -/
theorem dot1_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    rowsTimesCols (M := 50000) (K := 128) (N := 64) (val_main_v49 (F := Ideal) x0 x1 x2 x3) x4 = val_main_v50 (F := Ideal) x0 x1 x2 x3 x4 := by
  funext i
  rw [val_main_v50_apply]
  unfold rowsTimesCols
  refine Finset.sum_congr rfl fun k _ => ?_
  have el : lidx_main_v50 i k = ix2 (⟨(i 0).val, idx2_lt0 i⟩ : Fin 50000) k :=
    funext fun a => Fin.ext (by match a with | ⟨0, _⟩ => rfl | ⟨1, _⟩ => rfl)
  have er : ridx_main_v50 i k = ix2 k (⟨(i 1).val, idx2_lt1 i⟩ : Fin 64) :=
    funext fun a => Fin.ext (by match a with | ⟨0, _⟩ => rfl | ⟨1, _⟩ => rfl)
  rw [el, er]

/-- The layer's host operations, from any contents holding the product, the message sources and targets and the
    message weights: the aggregate is the reference's. -/
theorem host1_agg (W : Valuation τ sig (Elt Ideal)) (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal))
    (hmm : W (Proc.devRef .tc main_v48) = val_main_v50 (F := Ideal) x0 x1 x2 x3 x4)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    StableHlo.after (hostOps3 (F := Ideal)) W (Proc.devRef .tc main_v61) = val_main_v63 (F := Ideal) x0 x1 x2 x3 x4 := by
  after_results_simp
  rw [hmm, h3, h6, h31]
  rfl

/-- The same operations leave the bias vector reshaped to one row. -/
theorem host1_bias (W : Valuation τ sig (Elt Ideal)) :
    StableHlo.after (hostOps3 (F := Ideal)) W (Proc.devRef .tc main_v62)
      = shapeCast S1x64 (W (Proc.devRef .tc main_arg5)) shapeCasts_S64_S1x64 := by
  after_results_simp
  rfl

/-- The bias step of an aggregate and the reshaped bias is the reference's sum with the broadcast bias, against zero. -/
theorem out1_eq (a : (⟨Cert.ReferenceIdeal.S50000x64, .f32⟩ : BufTy).Contents (Elt Ideal)) (b : (⟨Cert.ReferenceIdeal.S64, .f32⟩ : BufTy).Contents (Elt Ideal))
    (hc : Cert.ReferenceIdeal.S64.ShapeCasts Cert.KernelIdeal.S1x64) :
    addRowMax (M := 50000) (N := 64) a (shapeCast Cert.KernelIdeal.S1x64 b hc)
      = maximumf (addf a (val_main_v65 (F := Ideal) b)) (val_main_call2_v0 (F := Ideal)) := by
  funext i
  show FloatOps.maximumf (F := Ideal) (φ := .f32) (FloatOps.addf (F := Ideal) (φ := .f32) (a i) (shapeCast Cert.KernelIdeal.S1x64 b hc (ix2 (⟨0, Nat.one_pos⟩ : Fin 1) (⟨(i 1).val, idx2_lt1 i⟩ : Fin 64)))) (FloatOps.ofBits (F := Ideal) .f32 0x00000000#32)
     = FloatOps.maximumf (F := Ideal) (φ := .f32) (FloatOps.addf (F := Ideal) (φ := .f32) (a i) (val_main_v65 (F := Ideal) b i)) (val_main_call2_v0 (F := Ideal) i)
  rw [val_main_v65_apply, val_main_v64_apply, val_main_call2_v0_apply, val_main_call2_cst_apply]
  rw [shapeCast_apply b hc (ix2 (⟨0, Nat.one_pos⟩ : Fin 1) (⟨(i 1).val, idx2_lt1 i⟩ : Fin 64)) (idx_main_v64 (idx_main_v65 i))
    (by rw [Shape.rowMajor_val_one, Shape.rowMajor_val_two]; show (i 1).val = 0 * 64 + (i 1).val; omega)]

variable (m : (ℓ : Loc nD τ sig) → Buf (Elt Ideal) ℓ) (ρ : Dev nD → PrngReg) (c : Dev nD)

/-- After the first launch the product buffer holds the reference's dot_general of the arguments. -/
theorem mm1_val : W7 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((final2 (V6 m ρ) c).trans ?_)
  show rowsTimesCols (M := 50000) (K := 128) (N := 64) (W6 m ρ c (Proc.devRef .tc main_v47)) (W6 m ρ c (Proc.devRef .tc main_arg4)) = _
  rw [out0_val m ρ c, W6_arg4 m ρ c]
  exact dot1_eq _ _ _ _ _

/-- After the host operations the aggregate buffer holds the reference's aggregate. -/
theorem agg1_val : W8 m ρ c (Proc.devRef .tc main_v61) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  host1_agg (W7 m ρ c) _ _ _ _ _ (mm1_val m ρ c)
    ((W7_main_v3 m ρ c).trans (pre_v3_of (W0 m ρ c)))
    ((W7_main_v6 m ρ c).trans (pre_v6_of (W0 m ρ c)))
    ((W7_main_v31 m ρ c).trans (pre_v31_of (W0 m ρ c)))

/-- … and the bias row buffer the bias argument reshaped. -/
theorem rs1_val : W8 m ρ c (Proc.devRef .tc main_v62)
    = shapeCast S1x64 (m ((c : Thread nD τ).loc main_arg5)) shapeCasts_S64_S1x64 :=
  (host1_bias (W7 m ρ c)).trans (congrArg (fun v => shapeCast S1x64 v shapeCasts_S64_S1x64) (W7_arg5 m ρ c))

/-- After the second launch the layer's output buffer holds the reference's layer output. -/
theorem out1_val : W9 m ρ c (Proc.devRef .tc main_v63) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final3 (V8 m ρ) c).trans ?_)
  show addRowMax (M := 50000) (N := 64) (W8 m ρ c (Proc.devRef .tc main_v61)) (W8 m ρ c (Proc.devRef .tc main_v62)) = _
  rw [agg1_val m ρ c, rs1_val m ρ c]
  exact (out1_eq _ _ _).trans rfl

end Cert.KV

end
-- ==== Proof.Layer2.lean ====
/-
  Layer 3 of the network: the kernel's three steps against the reference's stages.

  The layer's linear map is a launch; gathering the transformed features along the message sources, scaling by the
  message weights and summing per target node are host operations, the same ones in the same order as the
  reference's; adding the bias is a second launch. Entry by entry the first launch's product is the
  reference's dot_general (both are the sum over k of features (r, k) · weights (k, q)), and the second launch's
  result is the reference's sum with the broadcast bias (the kernel's bias row is the bias vector reshaped).
  So after each of the three steps the kernel's buffer holds the reference's stage of the same arguments.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.MM4
import proofs.«178092_j65704409694294_1_alg».proof.Proof.BA5
import proofs.«178092_j65704409694294_1_alg».proof.Proof.KeepArgs
import proofs.«178092_j65704409694294_1_alg».proof.Proof.KeepIdx
import proofs.«178092_j65704409694294_1_alg».proof.Proof.Prelude
import proofs.«178092_j65704409694294_1_alg».proof.Proof.Layer1

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- The reference's dot_general of this layer is rows times columns. -/
theorem dot2_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) :
    rowsTimesCols (M := 50000) (K := 64) (N := 32) (val_main_v67 (F := Ideal) x0 x1 x2 x3 x4 x5) x6 = val_main_v68 (F := Ideal) x0 x1 x2 x3 x4 x5 x6 := by
  funext i
  rw [val_main_v68_apply]
  unfold rowsTimesCols
  refine Finset.sum_congr rfl fun k _ => ?_
  have el : lidx_main_v68 i k = ix2 (⟨(i 0).val, idx2_lt0 i⟩ : Fin 50000) k :=
    funext fun a => Fin.ext (by match a with | ⟨0, _⟩ => rfl | ⟨1, _⟩ => rfl)
  have er : ridx_main_v68 i k = ix2 k (⟨(i 1).val, idx2_lt1 i⟩ : Fin 32) :=
    funext fun a => Fin.ext (by match a with | ⟨0, _⟩ => rfl | ⟨1, _⟩ => rfl)
  rw [el, er]

/-- The layer's host operations, from any contents holding the product, the message sources and targets and the
    message weights: the aggregate is the reference's. -/
theorem host2_agg (W : Valuation τ sig (Elt Ideal)) (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal))
    (hmm : W (Proc.devRef .tc main_v64) = val_main_v68 (F := Ideal) x0 x1 x2 x3 x4 x5 x6)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    StableHlo.after (hostOps5 (F := Ideal)) W (Proc.devRef .tc main_v77) = val_main_v81 (F := Ideal) x0 x1 x2 x3 x4 x5 x6 := by
  after_results_simp
  rw [hmm, h3, h6, h31]
  rfl

/-- The same operations leave the bias vector reshaped to one row. -/
theorem host2_bias (W : Valuation τ sig (Elt Ideal)) :
    StableHlo.after (hostOps5 (F := Ideal)) W (Proc.devRef .tc main_v78)
      = shapeCast S1x32 (W (Proc.devRef .tc main_arg7)) shapeCasts_S32_S1x32 := by
  after_results_simp
  rfl

/-- The bias step of an aggregate and the reshaped bias is the reference's sum with the broadcast bias. -/
theorem out2_eq (a : (⟨Cert.ReferenceIdeal.S50000x32, .f32⟩ : BufTy).Contents (Elt Ideal)) (b : (⟨Cert.ReferenceIdeal.S32, .f32⟩ : BufTy).Contents (Elt Ideal))
    (hc : Cert.ReferenceIdeal.S32.ShapeCasts Cert.KernelIdeal.S1x32) :
    addRow (M := 50000) (N := 32) a (shapeCast Cert.KernelIdeal.S1x32 b hc)
      = addf a (val_main_v83 (F := Ideal) b) := by
  funext i
  show FloatOps.addf (F := Ideal) (φ := .f32) (a i) (shapeCast Cert.KernelIdeal.S1x32 b hc (ix2 (⟨0, Nat.one_pos⟩ : Fin 1) (⟨(i 1).val, idx2_lt1 i⟩ : Fin 32)))
     = FloatOps.addf (F := Ideal) (φ := .f32) (a i) (val_main_v83 (F := Ideal) b i)
  rw [val_main_v83_apply, val_main_v82_apply]
  rw [shapeCast_apply b hc (ix2 (⟨0, Nat.one_pos⟩ : Fin 1) (⟨(i 1).val, idx2_lt1 i⟩ : Fin 32)) (idx_main_v82 (idx_main_v83 i))
    (by rw [Shape.rowMajor_val_one, Shape.rowMajor_val_two]; show (i 1).val = 0 * 32 + (i 1).val; omega)]

variable (m : (ℓ : Loc nD τ sig) → Buf (Elt Ideal) ℓ) (ρ : Dev nD → PrngReg) (c : Dev nD)

/-- After the first launch the product buffer holds the reference's dot_general of the arguments. -/
theorem mm2_val : W10 m ρ c (Proc.devRef .tc main_v64) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((final4 (V9 m ρ) c).trans ?_)
  show rowsTimesCols (M := 50000) (K := 64) (N := 32) (W9 m ρ c (Proc.devRef .tc main_v63)) (W9 m ρ c (Proc.devRef .tc main_arg6)) = _
  rw [out1_val m ρ c, W9_arg6 m ρ c]
  exact dot2_eq _ _ _ _ _ _ _

/-- After the host operations the aggregate buffer holds the reference's aggregate. -/
theorem agg2_val : W11 m ρ c (Proc.devRef .tc main_v77) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  host2_agg (W10 m ρ c) _ _ _ _ _ _ _ (mm2_val m ρ c)
    ((W10_main_v3 m ρ c).trans (pre_v3_of (W0 m ρ c)))
    ((W10_main_v6 m ρ c).trans (pre_v6_of (W0 m ρ c)))
    ((W10_main_v31 m ρ c).trans (pre_v31_of (W0 m ρ c)))

/-- … and the bias row buffer the bias argument reshaped. -/
theorem rs2_val : W11 m ρ c (Proc.devRef .tc main_v78)
    = shapeCast S1x32 (m ((c : Thread nD τ).loc main_arg7)) shapeCasts_S32_S1x32 :=
  (host2_bias (W10 m ρ c)).trans (congrArg (fun v => shapeCast S1x32 v shapeCasts_S32_S1x32) (W10_arg7 m ρ c))

/-- After the second launch the layer's output buffer holds the reference's layer output. -/
theorem out2_val : W12 m ρ c (Proc.devRef .tc main_v79) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((final5 (V11 m ρ) c).trans ?_)
  show addRow (M := 50000) (N := 32) (W11 m ρ c (Proc.devRef .tc main_v77)) (W11 m ρ c (Proc.devRef .tc main_v78)) = _
  rw [agg2_val m ρ c, rs2_val m ρ c]
  exact (out2_eq _ _ _).trans rfl

end Cert.KV

end
-- ==== Proof.Layer3.lean ====
/-
  Layer 4 of the network: the kernel's three steps against the reference's stages.

  The layer's linear map is a launch; gathering the transformed features along the message sources, scaling by the
  message weights and summing per target node are host operations, the same ones in the same order as the
  reference's; adding the bias and taking the maximum with zero is a second launch. Entry by entry the first launch's product is the
  reference's dot_general (both are the sum over k of features (r, k) · weights (k, q)), and the second launch's
  result is the reference's sum with the broadcast bias against zero (the kernel's bias row is the bias vector reshaped).
  So after each of the three steps the kernel's buffer holds the reference's stage of the same arguments.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.MM6
import proofs.«178092_j65704409694294_1_alg».proof.Proof.BA7
import proofs.«178092_j65704409694294_1_alg».proof.Proof.KeepArgs
import proofs.«178092_j65704409694294_1_alg».proof.Proof.KeepIdx
import proofs.«178092_j65704409694294_1_alg».proof.Proof.Prelude
import proofs.«178092_j65704409694294_1_alg».proof.Proof.Layer2

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- The reference's dot_general of this layer is rows times columns. -/
theorem dot3_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) :
    rowsTimesCols (M := 50000) (K := 32) (N := 64) (val_main_v84 (F := Ideal) x0 x1 x2 x3 x4 x5 x6 x7) x8 = val_main_v85 (F := Ideal) x0 x1 x2 x3 x4 x5 x6 x7 x8 := by
  funext i
  rw [val_main_v85_apply]
  unfold rowsTimesCols
  refine Finset.sum_congr rfl fun k _ => ?_
  have el : lidx_main_v85 i k = ix2 (⟨(i 0).val, idx2_lt0 i⟩ : Fin 50000) k :=
    funext fun a => Fin.ext (by match a with | ⟨0, _⟩ => rfl | ⟨1, _⟩ => rfl)
  have er : ridx_main_v85 i k = ix2 k (⟨(i 1).val, idx2_lt1 i⟩ : Fin 64) :=
    funext fun a => Fin.ext (by match a with | ⟨0, _⟩ => rfl | ⟨1, _⟩ => rfl)
  rw [el, er]

/-- The layer's host operations, from any contents holding the product, the message sources and targets and the
    message weights: the aggregate is the reference's. -/
theorem host3_agg (W : Valuation τ sig (Elt Ideal)) (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal))
    (hmm : W (Proc.devRef .tc main_v80) = val_main_v85 (F := Ideal) x0 x1 x2 x3 x4 x5 x6 x7 x8)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    StableHlo.after (hostOps7 (F := Ideal)) W (Proc.devRef .tc main_v93) = val_main_v98 (F := Ideal) x0 x1 x2 x3 x4 x5 x6 x7 x8 := by
  after_results_simp
  rw [hmm, h3, h6, h31]
  rfl

/-- The same operations leave the bias vector reshaped to one row. -/
theorem host3_bias (W : Valuation τ sig (Elt Ideal)) :
    StableHlo.after (hostOps7 (F := Ideal)) W (Proc.devRef .tc main_v94)
      = shapeCast S1x64 (W (Proc.devRef .tc main_arg9)) shapeCasts_S64_S1x64 := by
  after_results_simp
  rfl

/-- The bias step of an aggregate and the reshaped bias is the reference's sum with the broadcast bias, against zero. -/
theorem out3_eq (a : (⟨Cert.ReferenceIdeal.S50000x64, .f32⟩ : BufTy).Contents (Elt Ideal)) (b : (⟨Cert.ReferenceIdeal.S64, .f32⟩ : BufTy).Contents (Elt Ideal))
    (hc : Cert.ReferenceIdeal.S64.ShapeCasts Cert.KernelIdeal.S1x64) :
    addRowMax (M := 50000) (N := 64) a (shapeCast Cert.KernelIdeal.S1x64 b hc)
      = maximumf (addf a (val_main_v100 (F := Ideal) b)) (val_main_call3_v0 (F := Ideal)) := by
  funext i
  show FloatOps.maximumf (F := Ideal) (φ := .f32) (FloatOps.addf (F := Ideal) (φ := .f32) (a i) (shapeCast Cert.KernelIdeal.S1x64 b hc (ix2 (⟨0, Nat.one_pos⟩ : Fin 1) (⟨(i 1).val, idx2_lt1 i⟩ : Fin 64)))) (FloatOps.ofBits (F := Ideal) .f32 0x00000000#32)
     = FloatOps.maximumf (F := Ideal) (φ := .f32) (FloatOps.addf (F := Ideal) (φ := .f32) (a i) (val_main_v100 (F := Ideal) b i)) (val_main_call3_v0 (F := Ideal) i)
  rw [val_main_v100_apply, val_main_v99_apply, val_main_call3_v0_apply, val_main_call3_cst_apply]
  rw [shapeCast_apply b hc (ix2 (⟨0, Nat.one_pos⟩ : Fin 1) (⟨(i 1).val, idx2_lt1 i⟩ : Fin 64)) (idx_main_v99 (idx_main_v100 i))
    (by rw [Shape.rowMajor_val_one, Shape.rowMajor_val_two]; show (i 1).val = 0 * 64 + (i 1).val; omega)]

variable (m : (ℓ : Loc nD τ sig) → Buf (Elt Ideal) ℓ) (ρ : Dev nD → PrngReg) (c : Dev nD)

/-- After the first launch the product buffer holds the reference's dot_general of the arguments. -/
theorem mm3_val : W13 m ρ c (Proc.devRef .tc main_v80) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ((final6 (V12 m ρ) c).trans ?_)
  show rowsTimesCols (M := 50000) (K := 32) (N := 64) (W12 m ρ c (Proc.devRef .tc main_v79)) (W12 m ρ c (Proc.devRef .tc main_arg8)) = _
  rw [out2_val m ρ c, W12_arg8 m ρ c]
  exact dot3_eq _ _ _ _ _ _ _ _ _

/-- After the host operations the aggregate buffer holds the reference's aggregate. -/
theorem agg3_val : W14 m ρ c (Proc.devRef .tc main_v93) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  host3_agg (W13 m ρ c) _ _ _ _ _ _ _ _ _ (mm3_val m ρ c)
    ((W13_main_v3 m ρ c).trans (pre_v3_of (W0 m ρ c)))
    ((W13_main_v6 m ρ c).trans (pre_v6_of (W0 m ρ c)))
    ((W13_main_v31 m ρ c).trans (pre_v31_of (W0 m ρ c)))

/-- … and the bias row buffer the bias argument reshaped. -/
theorem rs3_val : W14 m ρ c (Proc.devRef .tc main_v94)
    = shapeCast S1x64 (m ((c : Thread nD τ).loc main_arg9)) shapeCasts_S64_S1x64 :=
  (host3_bias (W13 m ρ c)).trans (congrArg (fun v => shapeCast S1x64 v shapeCasts_S64_S1x64) (W13_arg9 m ρ c))

/-- After the second launch the layer's output buffer holds the reference's layer output. -/
theorem out3_val : W15 m ρ c (Proc.devRef .tc main_v95) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W15_arr m ρ c 2).trans ((final7 (V14 m ρ) c).trans ?_)
  show addRowMax (M := 50000) (N := 64) (W14 m ρ c (Proc.devRef .tc main_v93)) (W14 m ρ c (Proc.devRef .tc main_v94)) = _
  rw [agg3_val m ρ c, rs3_val m ρ c]
  exact (out3_eq _ _ _).trans rfl

end Cert.KV

end
-- ==== Proof.Layer4.lean ====
/-
  Layer 5 of the network: the kernel's three steps against the reference's stages.

  The layer's linear map is a launch; gathering the transformed features along the message sources, scaling by the
  message weights and summing per target node are host operations, the same ones in the same order as the
  reference's; adding the bias and taking the maximum with zero is a second launch. Entry by entry the first launch's product is the
  reference's dot_general (both are the sum over k of features (r, k) · weights (k, q)), and the second launch's
  result is the reference's sum with the broadcast bias against zero (the kernel's bias row is the bias vector reshaped).
  So after each of the three steps the kernel's buffer holds the reference's stage of the same arguments.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.MM8
import proofs.«178092_j65704409694294_1_alg».proof.Proof.BA9
import proofs.«178092_j65704409694294_1_alg».proof.Proof.KeepArgs
import proofs.«178092_j65704409694294_1_alg».proof.Proof.KeepIdx
import proofs.«178092_j65704409694294_1_alg».proof.Proof.Prelude
import proofs.«178092_j65704409694294_1_alg».proof.Proof.Layer3

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- The reference's dot_general of this layer is rows times columns. -/
theorem dot4_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) (x10 : (⟨Cert.ReferenceIdeal.S64x128, .f32⟩ : BufTy).Contents (Elt Ideal)) :
    rowsTimesCols (M := 50000) (K := 64) (N := 128) (val_main_v102 (F := Ideal) x0 x1 x2 x3 x4 x5 x6 x7 x8 x9) x10 = val_main_v103 (F := Ideal) x0 x1 x2 x3 x4 x5 x6 x7 x8 x9 x10 := by
  funext i
  rw [val_main_v103_apply]
  unfold rowsTimesCols
  refine Finset.sum_congr rfl fun k _ => ?_
  have el : lidx_main_v103 i k = ix2 (⟨(i 0).val, idx2_lt0 i⟩ : Fin 50000) k :=
    funext fun a => Fin.ext (by match a with | ⟨0, _⟩ => rfl | ⟨1, _⟩ => rfl)
  have er : ridx_main_v103 i k = ix2 k (⟨(i 1).val, idx2_lt1 i⟩ : Fin 128) :=
    funext fun a => Fin.ext (by match a with | ⟨0, _⟩ => rfl | ⟨1, _⟩ => rfl)
  rw [el, er]

/-- The layer's host operations, from any contents holding the product, the message sources and targets and the
    message weights: the aggregate is the reference's. -/
theorem host4_agg (W : Valuation τ sig (Elt Ideal)) (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) (x10 : (⟨Cert.ReferenceIdeal.S64x128, .f32⟩ : BufTy).Contents (Elt Ideal))
    (hmm : W (Proc.devRef .tc main_v96) = val_main_v103 (F := Ideal) x0 x1 x2 x3 x4 x5 x6 x7 x8 x9 x10)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    StableHlo.after (hostOps9 (F := Ideal)) W (Proc.devRef .tc main_v109) = val_main_v116 (F := Ideal) x0 x1 x2 x3 x4 x5 x6 x7 x8 x9 x10 := by
  after_results_simp
  rw [hmm, h3, h6, h31]
  rfl

/-- The same operations leave the bias vector reshaped to one row. -/
theorem host4_bias (W : Valuation τ sig (Elt Ideal)) :
    StableHlo.after (hostOps9 (F := Ideal)) W (Proc.devRef .tc main_v110)
      = shapeCast S1x128 (W (Proc.devRef .tc main_arg11)) shapeCasts_S128_S1x128 := by
  after_results_simp
  rfl

/-- The bias step of an aggregate and the reshaped bias is the reference's sum with the broadcast bias, against zero. -/
theorem out4_eq (a : (⟨Cert.ReferenceIdeal.S50000x128, .f32⟩ : BufTy).Contents (Elt Ideal)) (b : (⟨Cert.ReferenceIdeal.S128, .f32⟩ : BufTy).Contents (Elt Ideal))
    (hc : Cert.ReferenceIdeal.S128.ShapeCasts Cert.KernelIdeal.S1x128) :
    addRowMax (M := 50000) (N := 128) a (shapeCast Cert.KernelIdeal.S1x128 b hc)
      = maximumf (addf a (val_main_v118 (F := Ideal) b)) (val_main_call4_v0 (F := Ideal)) := by
  funext i
  show FloatOps.maximumf (F := Ideal) (φ := .f32) (FloatOps.addf (F := Ideal) (φ := .f32) (a i) (shapeCast Cert.KernelIdeal.S1x128 b hc (ix2 (⟨0, Nat.one_pos⟩ : Fin 1) (⟨(i 1).val, idx2_lt1 i⟩ : Fin 128)))) (FloatOps.ofBits (F := Ideal) .f32 0x00000000#32)
     = FloatOps.maximumf (F := Ideal) (φ := .f32) (FloatOps.addf (F := Ideal) (φ := .f32) (a i) (val_main_v118 (F := Ideal) b i)) (val_main_call4_v0 (F := Ideal) i)
  rw [val_main_v118_apply, val_main_v117_apply, val_main_call4_v0_apply, val_main_call4_cst_apply]
  rw [shapeCast_apply b hc (ix2 (⟨0, Nat.one_pos⟩ : Fin 1) (⟨(i 1).val, idx2_lt1 i⟩ : Fin 128)) (idx_main_v117 (idx_main_v118 i))
    (by rw [Shape.rowMajor_val_one, Shape.rowMajor_val_two]; show (i 1).val = 0 * 128 + (i 1).val; omega)]

variable (m : (ℓ : Loc nD τ sig) → Buf (Elt Ideal) ℓ) (ρ : Dev nD → PrngReg) (c : Dev nD)

/-- After the first launch the product buffer holds the reference's dot_general of the arguments. -/
theorem mm4_val : W16 m ρ c (Proc.devRef .tc main_v96) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W16_arr m ρ c 2).trans ((final8 (V15 m ρ) c).trans ?_)
  show rowsTimesCols (M := 50000) (K := 64) (N := 128) (W15 m ρ c (Proc.devRef .tc main_v95)) (W15 m ρ c (Proc.devRef .tc main_arg10)) = _
  rw [out3_val m ρ c, W15_arg10 m ρ c]
  exact dot4_eq _ _ _ _ _ _ _ _ _ _ _

/-- After the host operations the aggregate buffer holds the reference's aggregate. -/
theorem agg4_val : W17 m ρ c (Proc.devRef .tc main_v109) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  host4_agg (W16 m ρ c) _ _ _ _ _ _ _ _ _ _ _ (mm4_val m ρ c)
    ((W16_main_v3 m ρ c).trans (pre_v3_of (W0 m ρ c)))
    ((W16_main_v6 m ρ c).trans (pre_v6_of (W0 m ρ c)))
    ((W16_main_v31 m ρ c).trans (pre_v31_of (W0 m ρ c)))

/-- … and the bias row buffer the bias argument reshaped. -/
theorem rs4_val : W17 m ρ c (Proc.devRef .tc main_v110)
    = shapeCast S1x128 (m ((c : Thread nD τ).loc main_arg11)) shapeCasts_S128_S1x128 :=
  (host4_bias (W16 m ρ c)).trans (congrArg (fun v => shapeCast S1x128 v shapeCasts_S128_S1x128) (W16_arg11 m ρ c))

/-- After the second launch the layer's output buffer holds the reference's layer output. -/
theorem out4_val : W18 m ρ c (Proc.devRef .tc main_v111) = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W18_arr m ρ c 2).trans ((final9 (V17 m ρ) c).trans ?_)
  show addRowMax (M := 50000) (N := 128) (W17 m ρ c (Proc.devRef .tc main_v109)) (W17 m ρ c (Proc.devRef .tc main_v110)) = _
  rw [agg4_val m ρ c, rs4_val m ρ c]
  exact (out4_eq _ _ _).trans rfl

end Cert.KV

end
-- ==== Proof.Layer5.lean ====
/-
  Layer 6 of the network: the kernel's three steps against the reference's stages.

  The layer's linear map is a launch; gathering the transformed features along the message sources, scaling by the
  message weights and summing per target node are host operations, the same ones in the same order as the
  reference's; adding the bias is a second launch. Entry by entry the first launch's product is the
  reference's dot_general (both are the sum over k of features (r, k) · weights (k, q)), and the second launch's
  result is the reference's sum with the broadcast bias (the kernel's bias row is the bias vector reshaped).
  So after each of the three steps the kernel's buffer holds the reference's stage of the same arguments.
-/
import proofs.«178092_j65704409694294_1_alg».proof.Proof.Gen.KernelIdeal.Frame
import proofs.«178092_j65704409694294_1_alg».proof.Proof.RefRead
import proofs.«178092_j65704409694294_1_alg».proof.Proof.Spec
import proofs.«178092_j65704409694294_1_alg».proof.Proof.MM10
import proofs.«178092_j65704409694294_1_alg».proof.Proof.BA11
import proofs.«178092_j65704409694294_1_alg».proof.Proof.KeepArgs
import proofs.«178092_j65704409694294_1_alg».proof.Proof.KeepIdx
import proofs.«178092_j65704409694294_1_alg».proof.Proof.Prelude
import proofs.«178092_j65704409694294_1_alg».proof.Proof.Layer4

set_option maxRecDepth 16384

noncomputable section

open scoped BigOperators

namespace Cert.KV

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- The reference's dot_general of this layer is rows times columns. -/
theorem dot5_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) (x10 : (⟨Cert.ReferenceIdeal.S64x128, .f32⟩ : BufTy).Contents (Elt Ideal)) (x11 : (⟨Cert.ReferenceIdeal.S128, .f32⟩ : BufTy).Contents (Elt Ideal)) (x12 : (⟨Cert.ReferenceIdeal.S128x256, .f32⟩ : BufTy).Contents (Elt Ideal)) :
    rowsTimesCols (M := 50000) (K := 128) (N := 256) (val_main_v120 (F := Ideal) x0 x1 x2 x3 x4 x5 x6 x7 x8 x9 x10 x11) x12 = val_main_v121 (F := Ideal) x0 x1 x2 x3 x4 x5 x6 x7 x8 x9 x10 x11 x12 := by
  funext i
  rw [val_main_v121_apply]
  unfold rowsTimesCols
  refine Finset.sum_congr rfl fun k _ => ?_
  have el : lidx_main_v121 i k = ix2 (⟨(i 0).val, idx2_lt0 i⟩ : Fin 50000) k :=
    funext fun a => Fin.ext (by match a with | ⟨0, _⟩ => rfl | ⟨1, _⟩ => rfl)
  have er : ridx_main_v121 i k = ix2 k (⟨(i 1).val, idx2_lt1 i⟩ : Fin 256) :=
    funext fun a => Fin.ext (by match a with | ⟨0, _⟩ => rfl | ⟨1, _⟩ => rfl)
  rw [el, er]

/-- The layer's host operations, from any contents holding the product, the message sources and targets and the
    message weights: the aggregate is the reference's. -/
theorem host5_agg (W : Valuation τ sig (Elt Ideal)) (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) (x10 : (⟨Cert.ReferenceIdeal.S64x128, .f32⟩ : BufTy).Contents (Elt Ideal)) (x11 : (⟨Cert.ReferenceIdeal.S128, .f32⟩ : BufTy).Contents (Elt Ideal)) (x12 : (⟨Cert.ReferenceIdeal.S128x256, .f32⟩ : BufTy).Contents (Elt Ideal))
    (hmm : W (Proc.devRef .tc main_v112) = val_main_v121 (F := Ideal) x0 x1 x2 x3 x4 x5 x6 x7 x8 x9 x10 x11 x12)
    (h3 : W (Proc.devRef .tc main_v3) = val_main_v3 (F := Ideal) x1)
    (h6 : W (Proc.devRef .tc main_v6) = val_main_v6 (F := Ideal) x1)
    (h31 : W (Proc.devRef .tc main_v31) = val_main_v31 (F := Ideal) x1) :
    StableHlo.after (hostOps11 (F := Ideal)) W (Proc.devRef .tc main_v125) = val_main_v134 (F := Ideal) x0 x1 x2 x3 x4 x5 x6 x7 x8 x9 x10 x11 x12 := by
  after_results_simp
  rw [hmm, h3, h6, h31]
  rfl

/-- The same operations leave the bias vector reshaped to one row. -/
theorem host5_bias (W : Valuation τ sig (Elt Ideal)) :
    StableHlo.after (hostOps11 (F := Ideal)) W (Proc.devRef .tc main_v126)
      = shapeCast S1x256 (W (Proc.devRef .tc main_arg13)) shapeCasts_S256_S1x256 := by
  after_results_simp
  rfl

/-- The bias step of an aggregate and the reshaped bias is the reference's sum with the broadcast bias. -/
theorem out5_eq (a : (⟨Cert.ReferenceIdeal.S50000x256, .f32⟩ : BufTy).Contents (Elt Ideal)) (b : (⟨Cert.ReferenceIdeal.S256, .f32⟩ : BufTy).Contents (Elt Ideal))
    (hc : Cert.ReferenceIdeal.S256.ShapeCasts Cert.KernelIdeal.S1x256) :
    addRow (M := 50000) (N := 256) a (shapeCast Cert.KernelIdeal.S1x256 b hc)
      = addf a (val_main_v136 (F := Ideal) b) := by
  funext i
  show FloatOps.addf (F := Ideal) (φ := .f32) (a i) (shapeCast Cert.KernelIdeal.S1x256 b hc (ix2 (⟨0, Nat.one_pos⟩ : Fin 1) (⟨(i 1).val, idx2_lt1 i⟩ : Fin 256)))
     = FloatOps.addf (F := Ideal) (φ := .f32) (a i) (val_main_v136 (F := Ideal) b i)
  rw [val_main_v136_apply, val_main_v135_apply]
  rw [shapeCast_apply b hc (ix2 (⟨0, Nat.one_pos⟩ : Fin 1) (⟨(i 1).val, idx2_lt1 i⟩ : Fin 256)) (idx_main_v135 (idx_main_v136 i))
    (by rw [Shape.rowMajor_val_one, Shape.rowMajor_val_two]; show (i 1).val = 0 * 256 + (i 1).val; omega)]

variable (m : (ℓ : Loc nD τ sig) → Buf (Elt Ideal) ℓ) (ρ : Dev nD → PrngReg) (c : Dev nD)

/-- After the first launch the product buffer holds the reference's dot_general of the arguments. -/
theorem mm5_val : W19 m ρ c (Proc.devRef .tc main_v112) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W19_arr m ρ c 2).trans ((final10 (V18 m ρ) c).trans ?_)
  show rowsTimesCols (M := 50000) (K := 128) (N := 256) (W18 m ρ c (Proc.devRef .tc main_v111)) (W18 m ρ c (Proc.devRef .tc main_arg12)) = _
  rw [out4_val m ρ c, W18_arg12 m ρ c]
  exact dot5_eq _ _ _ _ _ _ _ _ _ _ _ _ _

/-- After the host operations the aggregate buffer holds the reference's aggregate. -/
theorem agg5_val : W20 m ρ c (Proc.devRef .tc main_v125) = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  host5_agg (W19 m ρ c) _ _ _ _ _ _ _ _ _ _ _ _ _ (mm5_val m ρ c)
    ((W19_main_v3 m ρ c).trans (pre_v3_of (W0 m ρ c)))
    ((W19_main_v6 m ρ c).trans (pre_v6_of (W0 m ρ c)))
    ((W19_main_v31 m ρ c).trans (pre_v31_of (W0 m ρ c)))

/-- … and the bias row buffer the bias argument reshaped. -/
theorem rs5_val : W20 m ρ c (Proc.devRef .tc main_v126)
    = shapeCast S1x256 (m ((c : Thread nD τ).loc main_arg13)) shapeCasts_S256_S1x256 :=
  (host5_bias (W19 m ρ c)).trans (congrArg (fun v => shapeCast S1x256 v shapeCasts_S256_S1x256) (W19_arg13 m ρ c))

/-- After the second launch the layer's output buffer holds the reference's layer output. -/
theorem out5_val : W21 m ρ c (Proc.devRef .tc main_v127) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W21_arr m ρ c 2).trans ((final11 (V20 m ρ) c).trans ?_)
  show addRow (M := 50000) (N := 256) (W20 m ρ c (Proc.devRef .tc main_v125)) (W20 m ρ c (Proc.devRef .tc main_v126)) = _
  rw [agg5_val m ρ c, rs5_val m ρ c]
  exact (out5_eq _ _ _).trans rfl

end Cert.KV

end
-- ==== Proof.lean ====
/-
  The kernel and its reference compute the same six-layer graph convolution network.

  Both programs build, from the edge list, the source and target index and the symmetric normalization weight of
  every message (the edges and one self loop per node), and then apply six layers
      h ↦ act (segment_sum (norm · (h · W)[src], dst) + b),
  act the maximum with zero in layers 1, 2, 4 and 5 and the identity in layers 3 and 6. The reference does all of it by
  host operations. The kernel does the linear map h · W and the bias step by launches tiled over blocks of 5000
  rows, its matrix unit fed through bf16, which over the extended reals changes nothing; the gather, the scaling and
  the segment sum in between are the reference's own host operations.

  The frames of the two kernel programs are the generated ones; the reference's frame is its run with the result
  dropped. No operation was rewritten by the idealization, so there is nothing to preserve. For the algebraic
  claim the kernel's result buffer is followed through the twelve launches and the host stretches between them
  (Proof/Layer0 … Layer5): after each step it holds the reference's stage of the same arguments, the last being
  the reference's result. No law of the extended reals beyond reading both matrix products as the same sum is
  used, so the precondition is never opened.
-/
import proofs.«178092_j65704409694294_1_alg».proof.Defs
import proofs.«178092_j65704409694294_1_alg».proof.Proof.Gen.Kernel
import proofs.«178092_j65704409694294_1_alg».proof.Proof.Gen.Kernel.Skeleton
import proofs.«178092_j65704409694294_1_alg».proof.Proof.Gen.Kernel.Launch
import proofs.«178092_j65704409694294_1_alg».proof.Proof.Gen.Kernel.Points
import proofs.«178092_j65704409694294_1_alg».proof.Proof.Gen.Kernel.Frame
import proofs.«178092_j65704409694294_1_alg».proof.Proof.Gen.KernelIdeal
import proofs.«178092_j65704409694294_1_alg».proof.Proof.Gen.KernelIdeal.Skeleton
import proofs.«178092_j65704409694294_1_alg».proof.Proof.Gen.KernelIdeal.Launch
import proofs.«178092_j65704409694294_1_alg».proof.Proof.Gen.KernelIdeal.Points
import proofs.«178092_j65704409694294_1_alg».proof.Proof.Gen.KernelIdeal.Frame
import proofs.«178092_j65704409694294_1_alg».proof.Proof.Gen.ReferenceIdeal
import proofs.«178092_j65704409694294_1_alg».proof.Proof.RefRun
import proofs.«178092_j65704409694294_1_alg».proof.Proof.RefRead
import proofs.«178092_j65704409694294_1_alg».proof.Proof.Gen.Pre_finite_inputs
import proofs.«178092_j65704409694294_1_alg».proof.Proof.KRun
import proofs.«178092_j65704409694294_1_alg».proof.Proof.Layer5
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the kernel's arguments: the kernel by the chain through its
    launches, the reference by its run, its arguments being the kernel's. -/
theorem algebraic : Cert.algebraic_KernelIdeal_ReferenceIdeal := by
  intro m ρ m' ρ' _ hagree
  refine ⟨fun c => Cert.ReferenceIdeal.Read.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KV.out5_val m ρ c), (h c).2⟩)
      (Cert.KV.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v137_eq]
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
